-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2000 : Shape := ⟨2, ![128, 2000]⟩
abbrev S10000x2000 : Shape := ⟨2, ![10000, 2000]⟩
abbrev S10000 : Shape := ⟨1, ![10000]⟩
abbrev S10000x20 : Shape := ⟨2, ![10000, 20]⟩
abbrev S_ : Shape := ⟨0, ![]⟩

class Facts : Prop where
  bcast_S_S128x2000 : S_.BroadcastsInDim S128x2000 (![] : Fin 0 → Fin S128x2000.rank)
  reducesTo_S128x2000_S_d0_1 : S128x2000.ReducesTo [0, 1] S_
  h_S_ : 0 < S_.numel
  bcast_S_S10000x2000 : S_.BroadcastsInDim S10000x2000 (![] : Fin 0 → Fin S10000x2000.rank)
  reducesTo_S10000x2000_S_d0_1 : S10000x2000.ReducesTo [0, 1] S_
  bcast_S_S10000 : S_.BroadcastsInDim S10000 (![] : Fin 0 → Fin S10000.rank)
  reducesTo_S10000_S_d0 : S10000.ReducesTo [0] S_
  bcast_S_S10000x20 : S_.BroadcastsInDim S10000x20 (![] : Fin 0 → Fin S10000x20.rank)
  reducesTo_S10000x20_S_d0_1 : S10000x20.ReducesTo [0, 1] S_

variable [Facts]

def fn_part1 {F : FTy → Type} [FloatOps F] (main_arg4 : FVec F S10000 .f32) (main_arg5 : FVec F S10000x20 .f32) (main_arg6 : FVec F S10000 .f32) (main_v13 : IVec S_ 1) (main_v16 : IVec S10000 1) : IVec S_ 1 :=
  let main_c_5 : IVec S_ 1 := constantI S_ 1 1#1
  let main_v17 : IVec S_ 1 := (fun x v => Host.reduce IntOp.andi x v reducesTo_S10000_S_d0 h_S_) main_v16 main_c_5
  let main_v18 : IVec S_ 1 := andi main_v13 main_v17
  let main_v19 : FVec F S10000 .f32 := Host.absf main_arg4
  let main_cst_6 : FVec F S_ .f32 := constant S_ .f32 0x7F800000#32
  let main_v20 : FVec F S10000 .f32 := broadcastInDim S10000 ![] bcast_S_S10000 main_cst_6
  let main_v21 : IVec S10000 1 := cmpf .olt main_v19 main_v20
  let main_c_7 : IVec S_ 1 := constantI S_ 1 1#1
  let main_v22 : IVec S_ 1 := (fun x v => Host.reduce IntOp.andi x v reducesTo_S10000_S_d0 h_S_) main_v21 main_c_7
  let main_v23 : IVec S_ 1 := andi main_v18 main_v22
  let main_v24 : FVec F S10000x20 .f32 := Host.absf main_arg5
  let main_cst_8 : FVec F S_ .f32 := constant S_ .f32 0x7F800000#32
  let main_v25 : FVec F S10000x20 .f32 := broadcastInDim S10000x20 ![] bcast_S_S10000x20 main_cst_8
  let main_v26 : IVec S10000x20 1 := cmpf .olt main_v24 main_v25
  let main_c_9 : IVec S_ 1 := constantI S_ 1 1#1
  let main_v27 : IVec S_ 1 := (fun x v => Host.reduce IntOp.andi x v reducesTo_S10000x20_S_d0_1 h_S_) main_v26 main_c_9
  let main_v28 : IVec S_ 1 := andi main_v23 main_v27
  let main_v29 : FVec F S10000 .f32 := Host.absf main_arg6
  let main_cst_10 : FVec F S_ .f32 := constant S_ .f32 0x7F800000#32
  let main_v30 : FVec F S10000 .f32 := broadcastInDim S10000 ![] bcast_S_S10000 main_cst_10
  let main_v31 : IVec S10000 1 := cmpf .olt main_v29 main_v30
  let main_c_11 : IVec S_ 1 := constantI S_ 1 1#1
  let main_v32 : IVec S_ 1 := (fun x v => Host.reduce IntOp.andi x v reducesTo_S10000_S_d0 h_S_) main_v31 main_c_11
  let main_v33 : IVec S_ 1 := andi main_v28 main_v32
  main_v33

def fn {F : FTy → Type} [FloatOps F] (main_arg0 : FVec F S128x2000 .f32) (main_arg1 : FVec F S10000x2000 .f32) (main_arg2 : FVec F S10000 .f32) (main_arg3 : FVec F S10000 .f32) (main_arg4 : FVec F S10000 .f32) (main_arg5 : FVec F S10000x20 .f32) (main_arg6 : FVec F S10000 .f32) : IVec S_ 1 :=
  let main_v0 : FVec F S128x2000 .f32 := Host.absf main_arg0
  let main_cst : FVec F S_ .f32 := constant S_ .f32 0x7F800000#32
  let main_v1 : FVec F S128x2000 .f32 := broadcastInDim S128x2000 ![] bcast_S_S128x2000 main_cst
  let main_v2 : IVec S128x2000 1 := cmpf .olt main_v0 main_v1
  let main_c : IVec S_ 1 := constantI S_ 1 1#1
  let main_v3 : IVec S_ 1 := (fun x v => Host.reduce IntOp.andi x v reducesTo_S128x2000_S_d0_1 h_S_) main_v2 main_c
  let main_v4 : FVec F S10000x2000 .f32 := Host.absf main_arg1
  let main_cst_0 : FVec F S_ .f32 := constant S_ .f32 0x7F800000#32
  let main_v5 : FVec F S10000x2000 .f32 := broadcastInDim S10000x2000 ![] bcast_S_S10000x2000 main_cst_0
  let main_v6 : IVec S10000x2000 1 := cmpf .olt main_v4 main_v5
  let main_c_1 : IVec S_ 1 := constantI S_ 1 1#1
  let main_v7 : IVec S_ 1 := (fun x v => Host.reduce IntOp.andi x v reducesTo_S10000x2000_S_d0_1 h_S_) main_v6 main_c_1
  let main_v8 : IVec S_ 1 := andi main_v3 main_v7
  let main_v9 : FVec F S10000 .f32 := Host.absf main_arg2
  let main_cst_2 : FVec F S_ .f32 := constant S_ .f32 0x7F800000#32
  let main_v10 : FVec F S10000 .f32 := broadcastInDim S10000 ![] bcast_S_S10000 main_cst_2
  let main_v11 : IVec S10000 1 := cmpf .olt main_v9 main_v10
  let main_c_3 : IVec S_ 1 := constantI S_ 1 1#1
  let main_v12 : IVec S_ 1 := (fun x v => Host.reduce IntOp.andi x v reducesTo_S10000_S_d0 h_S_) main_v11 main_c_3
  let main_v13 : IVec S_ 1 := andi main_v8 main_v12
  let main_v14 : FVec F S10000 .f32 := Host.absf main_arg3
  let main_cst_4 : FVec F S_ .f32 := constant S_ .f32 0x7F800000#32
  let main_v15 : FVec F S10000 .f32 := broadcastInDim S10000 ![] bcast_S_S10000 main_cst_4
  let main_v16 : IVec S10000 1 := cmpf .olt main_v14 main_v15
  fn_part1 (F := F) main_arg4 main_arg5 main_arg6 main_v13 main_v16
-- ==== Kernel.lean ====
abbrev S128x2000 : Shape := ⟨2, ![128, 2000]⟩
abbrev S10000x2000 : Shape := ⟨2, ![10000, 2000]⟩
abbrev S10000 : Shape := ⟨1, ![10000]⟩
abbrev S10000x20 : Shape := ⟨2, ![10000, 20]⟩
abbrev S1x10000 : Shape := ⟨2, ![1, 10000]⟩
abbrev S128x20x10000 : Shape := ⟨3, ![128, 20, 10000]⟩
abbrev S640x2000 : Shape := ⟨2, ![640, 2000]⟩
abbrev S1x640 : Shape := ⟨2, ![1, 640]⟩
abbrev S640x20 : Shape := ⟨2, ![640, 20]⟩
abbrev S128x20x640 : Shape := ⟨3, ![128, 20, 640]⟩
abbrev S128x640 : Shape := ⟨2, ![128, 640]⟩
abbrev S640 : Shape := ⟨1, ![640]⟩
abbrev S640x1 : Shape := ⟨2, ![640, 1]⟩
abbrev S128x1x640 : Shape := ⟨3, ![128, 1, 640]⟩
abbrev S128x10000x20 : Shape := ⟨3, ![128, 10000, 20]⟩
abbrev S128x200000 : Shape := ⟨2, ![128, 200000]⟩

abbrev nBuf : Space → Nat
  | .hbm => 14
  | .vmem => 15
  | .smem => 0
  | _ => 0

abbrev bufTy : (tb : Table) → Fin (tcTables nBuf tb) → BufTy
  | .hbm, ⟨0, _⟩ => ⟨S128x2000, .f32⟩
  | .hbm, ⟨1, _⟩ => ⟨S10000x2000, .f32⟩
  | .hbm, ⟨2, _⟩ => ⟨S10000, .f32⟩
  | .hbm, ⟨3, _⟩ => ⟨S10000, .f32⟩
  | .hbm, ⟨4, _⟩ => ⟨S10000, .f32⟩
  | .hbm, ⟨5, _⟩ => ⟨S10000x20, .f32⟩
  | .hbm, ⟨6, _⟩ => ⟨S10000, .f32⟩
  | .hbm, ⟨7, _⟩ => ⟨S1x10000, .f32⟩
  | .hbm, ⟨8, _⟩ => ⟨S1x10000, .f32⟩
  | .hbm, ⟨9, _⟩ => ⟨S1x10000, .f32⟩
  | .hbm, ⟨10, _⟩ => ⟨S1x10000, .f32⟩
  | .hbm, ⟨11, _⟩ => ⟨S128x20x10000, .f32⟩
  | .hbm, ⟨12, _⟩ => ⟨S128x10000x20, .f32⟩
  | .hbm, ⟨13, _⟩ => ⟨S128x200000, .f32⟩
  | .local _ .vmem, ⟨0, _⟩ => ⟨S128x2000, .f32⟩
  | .local _ .vmem, ⟨1, _⟩ => ⟨S640x2000, .f32⟩
  | .local _ .vmem, ⟨2, _⟩ => ⟨S640x2000, .f32⟩
  | .local _ .vmem, ⟨3, _⟩ => ⟨S1x640, .f32⟩
  | .local _ .vmem, ⟨4, _⟩ => ⟨S1x640, .f32⟩
  | .local _ .vmem, ⟨5, _⟩ => ⟨S1x640, .f32⟩
  | .local _ .vmem, ⟨6, _⟩ => ⟨S1x640, .f32⟩
  | .local _ .vmem, ⟨7, _⟩ => ⟨S1x640, .f32⟩
  | .local _ .vmem, ⟨8, _⟩ => ⟨S1x640, .f32⟩
  | .local _ .vmem, ⟨9, _⟩ => ⟨S640x20, .f32⟩
  | .local _ .vmem, ⟨10, _⟩ => ⟨S640x20, .f32⟩
  | .local _ .vmem, ⟨11, _⟩ => ⟨S1x640, .f32⟩
  | .local _ .vmem, ⟨12, _⟩ => ⟨S1x640, .f32⟩
  | .local _ .vmem, ⟨13, _⟩ => ⟨S128x20x640, .f32⟩
  | .local _ .vmem, ⟨14, _⟩ => ⟨S128x20x640, .f32⟩
  | _, _ => ⟨S128x2000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S128x2000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S640x2000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x20 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x20x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S10000_S1x10000 : S10000.ShapeCasts S1x10000
  inb_S128x2000_S128x2000_0_0 : ∀ a, (![0, 0] : Fin 2 → Nat) a + S128x2000.size a ≤ S128x2000.size a
  h_S128x2000 : 0 < S128x2000.numel
  bitsLt_bf16_f32 : FTy.bits .bf16 < FTy.bits .f32
  inb_S640x2000_S640x2000_0_0 : ∀ a, (![0, 0] : Fin 2 → Nat) a + S640x2000.size a ≤ S640x2000.size a
  h_S640x2000 : 0 < S640x2000.numel
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S128x640 : S1x640.Broadcasts S128x640
  reduces_S128x640_S640 : S128x640.Reduces [0] S640
  shapeCasts_S640_S1x640 : S640.ShapeCasts S1x640
  inb_S640x20_S640x20_0_0 : ∀ a, (![0, 0] : Fin 2 → Nat) a + S640x20.size a ≤ S640x20.size a
  h_S640x20 : 0 < S640x20.numel
  slices_S640x20_o0_0_S640x1 : S640x20.Slices ![0, 0] S640x1
  shapeCasts_S640x1_S640 : S640x1.ShapeCasts S640
  inb_S128x20x640_S128x1x640_0_0_0 : ∀ a, (![0, 0, 0] : Fin 3 → Nat) a + S128x1x640.size a ≤ S128x20x640.size a
  h_S128x1x640 : 0 < S128x1x640.numel
  shapeCasts_S128x1x640_S128x640 : S128x1x640.ShapeCasts S128x640
  shapeCasts_S128x640_S128x1x640 : S128x640.ShapeCasts S128x1x640
  slices_S640x20_o0_1_S640x1 : S640x20.Slices ![0, 1] S640x1
  inb_S128x20x640_S128x1x640_0_1_0 : ∀ a, (![0, 1, 0] : Fin 3 → Nat) a + S128x1x640.size a ≤ S128x20x640.size a
  slices_S640x20_o0_2_S640x1 : S640x20.Slices ![0, 2] S640x1
  inb_S128x20x640_S128x1x640_0_2_0 : ∀ a, (![0, 2, 0] : Fin 3 → Nat) a + S128x1x640.size a ≤ S128x20x640.size a
  slices_S640x20_o0_3_S640x1 : S640x20.Slices ![0, 3] S640x1
  inb_S128x20x640_S128x1x640_0_3_0 : ∀ a, (![0, 3, 0] : Fin 3 → Nat) a + S128x1x640.size a ≤ S128x20x640.size a
  slices_S640x20_o0_4_S640x1 : S640x20.Slices ![0, 4] S640x1
  inb_S128x20x640_S128x1x640_0_4_0 : ∀ a, (![0, 4, 0] : Fin 3 → Nat) a + S128x1x640.size a ≤ S128x20x640.size a
  slices_S640x20_o0_5_S640x1 : S640x20.Slices ![0, 5] S640x1
  inb_S128x20x640_S128x1x640_0_5_0 : ∀ a, (![0, 5, 0] : Fin 3 → Nat) a + S128x1x640.size a ≤ S128x20x640.size a
  slices_S640x20_o0_6_S640x1 : S640x20.Slices ![0, 6] S640x1
  inb_S128x20x640_S128x1x640_0_6_0 : ∀ a, (![0, 6, 0] : Fin 3 → Nat) a + S128x1x640.size a ≤ S128x20x640.size a
  slices_S640x20_o0_7_S640x1 : S640x20.Slices ![0, 7] S640x1
  inb_S128x20x640_S128x1x640_0_7_0 : ∀ a, (![0, 7, 0] : Fin 3 → Nat) a + S128x1x640.size a ≤ S128x20x640.size a
  slices_S640x20_o0_8_S640x1 : S640x20.Slices ![0, 8] S640x1
  inb_S128x20x640_S128x1x640_0_8_0 : ∀ a, (![0, 8, 0] : Fin 3 → Nat) a + S128x1x640.size a ≤ S128x20x640.size a
  slices_S640x20_o0_9_S640x1 : S640x20.Slices ![0, 9] S640x1
  inb_S128x20x640_S128x1x640_0_9_0 : ∀ a, (![0, 9, 0] : Fin 3 → Nat) a + S128x1x640.size a ≤ S128x20x640.size a
  slices_S640x20_o0_10_S640x1 : S640x20.Slices ![0, 10] S640x1
  inb_S128x20x640_S128x1x640_0_10_0 : ∀ a, (![0, 10, 0] : Fin 3 → Nat) a + S128x1x640.size a ≤ S128x20x640.size a
  slices_S640x20_o0_11_S640x1 : S640x20.Slices ![0, 11] S640x1
  inb_S128x20x640_S128x1x640_0_11_0 : ∀ a, (![0, 11, 0] : Fin 3 → Nat) a + S128x1x640.size a ≤ S128x20x640.size a
  slices_S640x20_o0_12_S640x1 : S640x20.Slices ![0, 12] S640x1
  inb_S128x20x640_S128x1x640_0_12_0 : ∀ a, (![0, 12, 0] : Fin 3 → Nat) a + S128x1x640.size a ≤ S128x20x640.size a
  slices_S640x20_o0_13_S640x1 : S640x20.Slices ![0, 13] S640x1
  inb_S128x20x640_S128x1x640_0_13_0 : ∀ a, (![0, 13, 0] : Fin 3 → Nat) a + S128x1x640.size a ≤ S128x20x640.size a
  slices_S640x20_o0_14_S640x1 : S640x20.Slices ![0, 14] S640x1
  inb_S128x20x640_S128x1x640_0_14_0 : ∀ a, (![0, 14, 0] : Fin 3 → Nat) a + S128x1x640.size a ≤ S128x20x640.size a
  slices_S640x20_o0_15_S640x1 : S640x20.Slices ![0, 15] S640x1
  inb_S128x20x640_S128x1x640_0_15_0 : ∀ a, (![0, 15, 0] : Fin 3 → Nat) a + S128x1x640.size a ≤ S128x20x640.size a
  slices_S640x20_o0_16_S640x1 : S640x20.Slices ![0, 16] S640x1
  inb_S128x20x640_S128x1x640_0_16_0 : ∀ a, (![0, 16, 0] : Fin 3 → Nat) a + S128x1x640.size a ≤ S128x20x640.size a
  slices_S640x20_o0_17_S640x1 : S640x20.Slices ![0, 17] S640x1
  inb_S128x20x640_S128x1x640_0_17_0 : ∀ a, (![0, 17, 0] : Fin 3 → Nat) a + S128x1x640.size a ≤ S128x20x640.size a
  slices_S640x20_o0_18_S640x1 : S640x20.Slices ![0, 18] S640x1
  inb_S128x20x640_S128x1x640_0_18_0 : ∀ a, (![0, 18, 0] : Fin 3 → Nat) a + S128x1x640.size a ≤ S128x20x640.size a
  slices_S640x20_o0_19_S640x1 : S640x20.Slices ![0, 19] S640x1
  inb_S128x20x640_S128x1x640_0_19_0 : ∀ a, (![0, 19, 0] : Fin 3 → Nat) a + S128x1x640.size a ≤ S128x20x640.size a
  transposes_S128x20x10000_S128x10000x20_0_2_1 : S128x20x10000.Transposes [0, 2, 1] S128x10000x20
  shapeCasts_S128x10000x20_S128x200000 : S128x10000x20.ShapeCasts S128x200000
  dot_S128x2000_S640x2000_S128x640_1_1_0_0_n_n_wf : DotDims.WF S128x2000 S640x2000 S128x640 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x2000.size a ≤ S128x2000.size a
  hwx0_0 : ∀ i : grid0.Coords, EltTy.bits .f32 = 32 ∨ (Rect.block (s := S128x2000) S128x2000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S640x2000.size a < S10000x2000.size a
  hwx0_1 : ∀ i : grid0.Coords, EltTy.bits .f32 = 32 ∨ (Rect.unit (s := S10000x2000) (fun a => cc0_transform_1 i a * S640x2000.size a) (fun a => (Pipeline.Clip.of (cc0_transform_1 i a) (S640x2000.size a) (S10000x2000.size a)).extent (S640x2000.size a)) fun a => Pipeline.Clip.inb (Pipeline.Clip.ok_of (hstart0_1 i a))).WholeWords (EltTy.packing .f32)
  hwxs0_1 : ∀ i : grid0.Coords, EltTy.bits .f32 = 32 ∨ (Rect.unit (s := S640x2000) (fun _ => 0) (fun a => (Pipeline.Clip.of (cc0_transform_1 i a) (S640x2000.size a) (S10000x2000.size a)).extent (S640x2000.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x640.size a < S1x10000.size a
  hwx0_2 : ∀ i : grid0.Coords, EltTy.bits .f32 = 32 ∨ (Rect.unit (s := S1x10000) (fun a => cc0_transform_2 i a * S1x640.size a) (fun a => (Pipeline.Clip.of (cc0_transform_2 i a) (S1x640.size a) (S1x10000.size a)).extent (S1x640.size a)) fun a => Pipeline.Clip.inb (Pipeline.Clip.ok_of (hstart0_2 i a))).WholeWords (EltTy.packing .f32)
  hwxs0_2 : ∀ i : grid0.Coords, EltTy.bits .f32 = 32 ∨ (Rect.unit (s := S1x640) (fun _ => 0) (fun a => (Pipeline.Clip.of (cc0_transform_2 i a) (S1x640.size a) (S1x10000.size a)).extent (S1x640.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x640.size a < S1x10000.size a
  hwx0_3 : ∀ i : grid0.Coords, EltTy.bits .f32 = 32 ∨ (Rect.unit (s := S1x10000) (fun a => cc0_transform_3 i a * S1x640.size a) (fun a => (Pipeline.Clip.of (cc0_transform_3 i a) (S1x640.size a) (S1x10000.size a)).extent (S1x640.size a)) fun a => Pipeline.Clip.inb (Pipeline.Clip.ok_of (hstart0_3 i a))).WholeWords (EltTy.packing .f32)
  hwxs0_3 : ∀ i : grid0.Coords, EltTy.bits .f32 = 32 ∨ (Rect.unit (s := S1x640) (fun _ => 0) (fun a => (Pipeline.Clip.of (cc0_transform_3 i a) (S1x640.size a) (S1x10000.size a)).extent (S1x640.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1x640.size a < S1x10000.size a
  hwx0_4 : ∀ i : grid0.Coords, EltTy.bits .f32 = 32 ∨ (Rect.unit (s := S1x10000) (fun a => cc0_transform_4 i a * S1x640.size a) (fun a => (Pipeline.Clip.of (cc0_transform_4 i a) (S1x640.size a) (S1x10000.size a)).extent (S1x640.size a)) fun a => Pipeline.Clip.inb (Pipeline.Clip.ok_of (hstart0_4 i a))).WholeWords (EltTy.packing .f32)
  hwxs0_4 : ∀ i : grid0.Coords, EltTy.bits .f32 = 32 ∨ (Rect.unit (s := S1x640) (fun _ => 0) (fun a => (Pipeline.Clip.of (cc0_transform_4 i a) (S1x640.size a) (S1x10000.size a)).extent (S1x640.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S640x20.size a < S10000x20.size a
  hwx0_5 : ∀ i : grid0.Coords, EltTy.bits .f32 = 32 ∨ (Rect.unit (s := S10000x20) (fun a => cc0_transform_5 i a * S640x20.size a) (fun a => (Pipeline.Clip.of (cc0_transform_5 i a) (S640x20.size a) (S10000x20.size a)).extent (S640x20.size a)) fun a => Pipeline.Clip.inb (Pipeline.Clip.ok_of (hstart0_5 i a))).WholeWords (EltTy.packing .f32)
  hwxs0_5 : ∀ i : grid0.Coords, EltTy.bits .f32 = 32 ∨ (Rect.unit (s := S640x20) (fun _ => 0) (fun a => (Pipeline.Clip.of (cc0_transform_5 i a) (S640x20.size a) (S10000x20.size a)).extent (S640x20.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S1x640.size a < S1x10000.size a
  hwx0_6 : ∀ i : grid0.Coords, EltTy.bits .f32 = 32 ∨ (Rect.unit (s := S1x10000) (fun a => cc0_transform_6 i a * S1x640.size a) (fun a => (Pipeline.Clip.of (cc0_transform_6 i a) (S1x640.size a) (S1x10000.size a)).extent (S1x640.size a)) fun a => Pipeline.Clip.inb (Pipeline.Clip.ok_of (hstart0_6 i a))).WholeWords (EltTy.packing .f32)
  hwxs0_6 : ∀ i : grid0.Coords, EltTy.bits .f32 = 32 ∨ (Rect.unit (s := S1x640) (fun _ => 0) (fun a => (Pipeline.Clip.of (cc0_transform_6 i a) (S1x640.size a) (S1x10000.size a)).extent (S1x640.size a)) fun a => (Nat.zero_add _).trans_le (Pipeline.Clip.extent_le (Pipeline.Clip.ok_of (hstart0_6 i a)))).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S128x20x640.size a < S128x20x10000.size a
  hwx0_7 : ∀ i : grid0.Coords, EltTy.bits .f32 = 32 ∨ (Rect.unit (s := S128x20x10000) (fun a => cc0_transform_7 i a * S128x20x640.size a) (fun a => (Pipeline.Clip.of (cc0_transform_7 i a) (S128x20x640.size a) (S128x20x10000.size a)).extent (S128x20x640.size a)) fun a => Pipeline.Clip.inb (Pipeline.Clip.ok_of (hstart0_7 i a))).WholeWords (EltTy.packing .f32)
  hwxs0_7 : ∀ i : grid0.Coords, EltTy.bits .f32 = 32 ∨ (Rect.unit (s := S128x20x640) (fun _ => 0) (fun a => (Pipeline.Clip.of (cc0_transform_7 i a) (S128x20x640.size a) (S128x20x10000.size a)).extent (S128x20x640.size a)) fun a => (Nat.zero_add _).trans_le (Pipeline.Clip.extent_le (Pipeline.Clip.ok_of (hstart0_7 i a)))).WholeWords (EltTy.packing .f32)

variable [Facts₀]

def dot_S128x2000_S640x2000_S128x640_1_1_0_0_n_n : DotDims S128x2000 S640x2000 S128x640 where
  lhsContracting := [1]
  rhsContracting := [1]
  lhsNonContracting := [0]
  rhsNonContracting := [0]
  lhsBatch := []
  rhsBatch := []
  wf := dot_S128x2000_S640x2000_S128x640_1_1_0_0_n_n_wf

abbrev win0_0 : Pipeline.Window sig grid0 :=
  Pipeline.Window.ofSpec (Memref.whole main_arg0) S128x2000.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S640x2000.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S1x640.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v1) S1x640.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v2) S1x640.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_arg5) S640x20.size cc0_transform_5 reads0_5 false false 2 stage0_5 sem0_5
    hrank0 hreads0_5 hstart0_5 nbuf0_5 (Memref.isWhole_whole _) hwx0_5 hwxs0_5 hstage0_5

abbrev win0_6 : Pipeline.Window sig grid0 :=
  Pipeline.Window.ofSpecClip (Memref.whole main_v3) S1x640.size cc0_transform_6 reads0_6 false false 2 stage0_6 sem0_6
    hrank0 hreads0_6 hstart0_6 nbuf0_6 (Memref.isWhole_whole _) hwx0_6 hwxs0_6 hstage0_6

abbrev win0_7 : Pipeline.Window sig grid0 :=
  Pipeline.Window.ofSpecClip (Memref.whole main_v4) S128x20x640.size cc0_transform_7 reads0_7 true false 2 stage0_7 sem0_7
    hrank0 hreads0_7 hstart0_7 nbuf0_7 (Memref.isWhole_whole _) hwx0_7 hwxs0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S128x2000 : Shape := ⟨2, ![128, 2000]⟩
abbrev S10000x2000 : Shape := ⟨2, ![10000, 2000]⟩
abbrev S10000 : Shape := ⟨1, ![10000]⟩
abbrev S10000x20 : Shape := ⟨2, ![10000, 20]⟩
abbrev S128x10000 : Shape := ⟨2, ![128, 10000]⟩
abbrev S1x10000 : Shape := ⟨2, ![1, 10000]⟩
abbrev S_ : Shape := ⟨0, ![]⟩
abbrev S128x10000x1 : Shape := ⟨3, ![128, 10000, 1]⟩
abbrev S1x10000x20 : Shape := ⟨3, ![1, 10000, 20]⟩
abbrev S128x10000x20 : Shape := ⟨3, ![128, 10000, 20]⟩
abbrev S1x10000x1 : Shape := ⟨3, ![1, 10000, 1]⟩
abbrev S128x200000 : Shape := ⟨2, ![128, 200000]⟩

abbrev nBuf : Space → Nat
  | .hbm => 72
  | .vmem => 0
  | .smem => 0
  | _ => 0

abbrev bufTy : (tb : Table) → Fin (tcTables nBuf tb) → BufTy
  | .hbm, ⟨0, _⟩ => ⟨S128x2000, .f32⟩
  | .hbm, ⟨1, _⟩ => ⟨S10000x2000, .f32⟩
  | .hbm, ⟨2, _⟩ => ⟨S10000, .f32⟩
  | .hbm, ⟨3, _⟩ => ⟨S10000, .f32⟩
  | .hbm, ⟨4, _⟩ => ⟨S10000, .f32⟩
  | .hbm, ⟨5, _⟩ => ⟨S10000x20, .f32⟩
  | .hbm, ⟨6, _⟩ => ⟨S10000, .f32⟩
  | .hbm, ⟨7, _⟩ => ⟨S128x10000, .f32⟩
  | .hbm, ⟨8, _⟩ => ⟨S1x10000, .f32⟩
  | .hbm, ⟨9, _⟩ => ⟨S128x10000, .f32⟩
  | .hbm, ⟨10, _⟩ => ⟨S128x10000, .f32⟩
  | .hbm, ⟨11, _⟩ => ⟨S_, .f32⟩
  | .hbm, ⟨12, _⟩ => ⟨S10000, .f32⟩
  | .hbm, ⟨13, _⟩ => ⟨S_, .f32⟩
  | .hbm, ⟨14, _⟩ => ⟨S10000, .f32⟩
  | .hbm, ⟨15, _⟩ => ⟨S10000, .f32⟩
  | .hbm, ⟨16, _⟩ => ⟨S1x10000, .f32⟩
  | .hbm, ⟨17, _⟩ => ⟨S128x10000, .f32⟩
  | .hbm, ⟨18, _⟩ => ⟨S128x10000, .f32⟩
  | .hbm, ⟨19, _⟩ => ⟨S128x10000, .f32⟩
  | .hbm, ⟨20, _⟩ => ⟨S_, .f32⟩
  | .hbm, ⟨21, _⟩ => ⟨S10000, .f32⟩
  | .hbm, ⟨22, _⟩ => ⟨S_, .f32⟩
  | .hbm, ⟨23, _⟩ => ⟨S10000, .f32⟩
  | .hbm, ⟨24, _⟩ => ⟨S10000, .f32⟩
  | .hbm, ⟨25, _⟩ => ⟨S1x10000, .f32⟩
  | .hbm, ⟨26, _⟩ => ⟨S128x10000, .f32⟩
  | .hbm, ⟨27, _⟩ => ⟨S128x10000, .f32⟩
  | .hbm, ⟨28, _⟩ => ⟨S_, .f32⟩
  | .hbm, ⟨29, _⟩ => ⟨S10000, .f32⟩
  | .hbm, ⟨30, _⟩ => ⟨S10000, .f32⟩
  | .hbm, ⟨31, _⟩ => ⟨S10000, .f32⟩
  | .hbm, ⟨32, _⟩ => ⟨S1x10000, .f32⟩
  | .hbm, ⟨33, _⟩ => ⟨S128x10000, .f32⟩
  | .hbm, ⟨34, _⟩ => ⟨S128x10000, .f32⟩
  | .hbm, ⟨35, _⟩ => ⟨S1x10000, .f32⟩
  | .hbm, ⟨36, _⟩ => ⟨S128x10000, .f32⟩
  | .hbm, ⟨37, _⟩ => ⟨S128x10000, .f32⟩
  | .hbm, ⟨38, _⟩ => ⟨S1x10000, .f32⟩
  | .hbm, ⟨39, _⟩ => ⟨S128x10000, .f32⟩
  | .hbm, ⟨40, _⟩ => ⟨S128x10000, .f32⟩
  | .hbm, ⟨41, _⟩ => ⟨S_, .f32⟩
  | .hbm, ⟨42, _⟩ => ⟨S128x10000, .f32⟩
  | .hbm, ⟨43, _⟩ => ⟨S128x10000, .i1⟩
  | .hbm, ⟨44, _⟩ => ⟨S_, .f32⟩
  | .hbm, ⟨45, _⟩ => ⟨S128x10000, .f32⟩
  | .hbm, ⟨46, _⟩ => ⟨S128x10000, .f32⟩
  | .hbm, ⟨47, _⟩ => ⟨S128x10000, .f32⟩
  | .hbm, ⟨48, _⟩ => ⟨S128x10000x1, .f32⟩
  | .hbm, ⟨49, _⟩ => ⟨S1x10000x20, .f32⟩
  | .hbm, ⟨50, _⟩ => ⟨S128x10000x20, .f32⟩
  | .hbm, ⟨51, _⟩ => ⟨S128x10000x20, .f32⟩
  | .hbm, ⟨52, _⟩ => ⟨S128x10000x20, .f32⟩
  | .hbm, ⟨53, _⟩ => ⟨S1x10000x1, .f32⟩
  | .hbm, ⟨54, _⟩ => ⟨S128x10000x20, .f32⟩
  | .hbm, ⟨55, _⟩ => ⟨S128x10000x20, .f32⟩
  | .hbm, ⟨56, _⟩ => ⟨S_, .f32⟩
  | .hbm, ⟨57, _⟩ => ⟨S128x10000x20, .f32⟩
  | .hbm, ⟨58, _⟩ => ⟨S128x10000x20, .i1⟩
  | .hbm, ⟨59, _⟩ => ⟨S_, .f32⟩
  | .hbm, ⟨60, _⟩ => ⟨S128x10000x20, .f32⟩
  | .hbm, ⟨61, _⟩ => ⟨S128x10000x20, .f32⟩
  | .hbm, ⟨62, _⟩ => ⟨S128x10000x20, .f32⟩
  | .hbm, ⟨63, _⟩ => ⟨S128x200000, .f32⟩
  | .hbm, ⟨64, _⟩ => ⟨S128x200000, .f32⟩
  | .hbm, ⟨65, _⟩ => ⟨S128x200000, .f32⟩
  | .hbm, ⟨66, _⟩ => ⟨S_, .f32⟩
  | .hbm, ⟨67, _⟩ => ⟨S128x200000, .f32⟩
  | .hbm, ⟨68, _⟩ => ⟨S128x200000, .f32⟩
  | .hbm, ⟨69, _⟩ => ⟨S_, .f32⟩
  | .hbm, ⟨70, _⟩ => ⟨S128x200000, .f32⟩
  | .hbm, ⟨71, _⟩ => ⟨S128x200000, .f32⟩
  | _, _ => ⟨S128x2000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]

class Facts₀ : Prop where
  bcast_S10000_S1x10000_1 : S10000.BroadcastsInDim S1x10000 (![1] : Fin 1 → Fin S1x10000.rank)
  bcast_S1x10000_S128x10000_0_1 : S1x10000.BroadcastsInDim S128x10000 (![0, 1] : Fin 2 → Fin S128x10000.rank)
  reducesTo_S128x10000_S10000_d0 : S128x10000.ReducesTo [0] S10000
  h_S_ : 0 < S_.numel
  bcast_S_S10000 : S_.BroadcastsInDim S10000 (![] : Fin 0 → Fin S10000.rank)
  bcast_S_S128x10000 : S_.BroadcastsInDim S128x10000 (![] : Fin 0 → Fin S128x10000.rank)
  bcast_S128x10000_S128x10000x1_0_1 : S128x10000.BroadcastsInDim S128x10000x1 (![0, 1] : Fin 2 → Fin S128x10000x1.rank)
  bcast_S10000x20_S1x10000x20_1_2 : S10000x20.BroadcastsInDim S1x10000x20 (![1, 2] : Fin 2 → Fin S1x10000x20.rank)
  bcast_S128x10000x1_S128x10000x20_0_1_2 : S128x10000x1.BroadcastsInDim S128x10000x20 (![0, 1, 2] : Fin 3 → Fin S128x10000x20.rank)
  bcast_S1x10000x20_S128x10000x20_0_1_2 : S1x10000x20.BroadcastsInDim S128x10000x20 (![0, 1, 2] : Fin 3 → Fin S128x10000x20.rank)
  bcast_S10000_S1x10000x1_1 : S10000.BroadcastsInDim S1x10000x1 (![1] : Fin 1 → Fin S1x10000x1.rank)
  bcast_S1x10000x1_S128x10000x20_0_1_2 : S1x10000x1.BroadcastsInDim S128x10000x20 (![0, 1, 2] : Fin 3 → Fin S128x10000x20.rank)
  bcast_S_S128x10000x20 : S_.BroadcastsInDim S128x10000x20 (![] : Fin 0 → Fin S128x10000x20.rank)
  shapeCasts_S128x10000x20_S128x200000 : S128x10000x20.ShapeCasts S128x200000
  bcast_S_S128x200000 : S_.BroadcastsInDim S128x200000 (![] : Fin 0 → Fin S128x200000.rank)
  dot_S128x2000_S10000x2000_S128x10000_1_1_0_0_n_n_wf : DotDims.WF S128x2000 S10000x2000 S128x10000 [1] [1] [0] [0] [] []

variable [Facts₀]

def dot_S128x2000_S10000x2000_S128x10000_1_1_0_0_n_n : DotDims S128x2000 S10000x2000 S128x10000 where
  lhsContracting := [1]
  rhsContracting := [1]
  lhsNonContracting := [0]
  rhsNonContracting := [0]
  lhsBatch := []
  rhsBatch := []
  wf := dot_S128x2000_S10000x2000_S128x10000_1_1_0_0_n_n_wf

class Facts : Prop extends Facts₀ where

variable [Facts]
-- ==== Proof.KernelBody.lean ====
/-
  The kernel body of the fused decoder on any staging buffers: seven whole loads (the latent block, a block of 640
  weight rows, the bias / scale / shift rows, a block of 640 filter rows and the filter-bias row), then for each of the
  twenty filter taps k one store of a [128, 1, 640] slab into the result buffer at row k of its middle axis. What the
  result buffer holds afterwards is the canon of those twenty stores over the slabs' payloads; the slabs tile the buffer.
-/
import proofs.«143995_j20495583936811_2_alg».proof.Proof.Gen.Kernel.Frame
import proofs.«143995_j20495583936811_2_alg».proof.Proof.Gen.Kernel.Skeleton
import Idealize.ShloMosaic.Lib.Pipeline.Frame
import Idealize.ShloMosaic.Lib.Exec.Geometry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The rectangles the body reads and writes through -/

abbrev rZ : Rect S128x2000 := Rect.unit (s := S128x2000) ![0, 0] S128x2000.size inb_S128x2000_S128x2000_0_0
abbrev rWt : Rect S640x2000 := Rect.unit (s := S640x2000) ![0, 0] S640x2000.size inb_S640x2000_S640x2000_0_0
abbrev rRow : Rect S1x640 := Rect.unit (s := S1x640) ![0, 0] S1x640.size inb_S1x640_S1x640_0_0
abbrev rCw : Rect S640x20 := Rect.unit (s := S640x20) ![0, 0] S640x20.size inb_S640x20_S640x20_0_0
abbrev rS0 : Rect S128x20x640 := Rect.unit (s := S128x20x640) ![0, 0, 0] S128x1x640.size inb_S128x20x640_S128x1x640_0_0_0
abbrev rS1 : Rect S128x20x640 := Rect.unit (s := S128x20x640) ![0, 1, 0] S128x1x640.size inb_S128x20x640_S128x1x640_0_1_0
abbrev rS2 : Rect S128x20x640 := Rect.unit (s := S128x20x640) ![0, 2, 0] S128x1x640.size inb_S128x20x640_S128x1x640_0_2_0
abbrev rS3 : Rect S128x20x640 := Rect.unit (s := S128x20x640) ![0, 3, 0] S128x1x640.size inb_S128x20x640_S128x1x640_0_3_0
abbrev rS4 : Rect S128x20x640 := Rect.unit (s := S128x20x640) ![0, 4, 0] S128x1x640.size inb_S128x20x640_S128x1x640_0_4_0
abbrev rS5 : Rect S128x20x640 := Rect.unit (s := S128x20x640) ![0, 5, 0] S128x1x640.size inb_S128x20x640_S128x1x640_0_5_0
abbrev rS6 : Rect S128x20x640 := Rect.unit (s := S128x20x640) ![0, 6, 0] S128x1x640.size inb_S128x20x640_S128x1x640_0_6_0
abbrev rS7 : Rect S128x20x640 := Rect.unit (s := S128x20x640) ![0, 7, 0] S128x1x640.size inb_S128x20x640_S128x1x640_0_7_0
abbrev rS8 : Rect S128x20x640 := Rect.unit (s := S128x20x640) ![0, 8, 0] S128x1x640.size inb_S128x20x640_S128x1x640_0_8_0
abbrev rS9 : Rect S128x20x640 := Rect.unit (s := S128x20x640) ![0, 9, 0] S128x1x640.size inb_S128x20x640_S128x1x640_0_9_0
abbrev rS10 : Rect S128x20x640 := Rect.unit (s := S128x20x640) ![0, 10, 0] S128x1x640.size inb_S128x20x640_S128x1x640_0_10_0
abbrev rS11 : Rect S128x20x640 := Rect.unit (s := S128x20x640) ![0, 11, 0] S128x1x640.size inb_S128x20x640_S128x1x640_0_11_0
abbrev rS12 : Rect S128x20x640 := Rect.unit (s := S128x20x640) ![0, 12, 0] S128x1x640.size inb_S128x20x640_S128x1x640_0_12_0
abbrev rS13 : Rect S128x20x640 := Rect.unit (s := S128x20x640) ![0, 13, 0] S128x1x640.size inb_S128x20x640_S128x1x640_0_13_0
abbrev rS14 : Rect S128x20x640 := Rect.unit (s := S128x20x640) ![0, 14, 0] S128x1x640.size inb_S128x20x640_S128x1x640_0_14_0
abbrev rS15 : Rect S128x20x640 := Rect.unit (s := S128x20x640) ![0, 15, 0] S128x1x640.size inb_S128x20x640_S128x1x640_0_15_0
abbrev rS16 : Rect S128x20x640 := Rect.unit (s := S128x20x640) ![0, 16, 0] S128x1x640.size inb_S128x20x640_S128x1x640_0_16_0
abbrev rS17 : Rect S128x20x640 := Rect.unit (s := S128x20x640) ![0, 17, 0] S128x1x640.size inb_S128x20x640_S128x1x640_0_17_0
abbrev rS18 : Rect S128x20x640 := Rect.unit (s := S128x20x640) ![0, 18, 0] S128x1x640.size inb_S128x20x640_S128x1x640_0_18_0
abbrev rS19 : Rect S128x20x640 := Rect.unit (s := S128x20x640) ![0, 19, 0] S128x1x640.size inb_S128x20x640_S128x1x640_0_19_0

/-! ## What the result buffer holds after the body -/

/-- The normalised, activated hidden block: the body's value before the taps, of the five buffers it reads. -/
def h39 (x0 : Vec F S128x2000 .f32) (x1 : Vec F S640x2000 .f32) (x2 x3 x4 : Vec F S1x640 .f32) : FVec F S128x640 .f32 :=
  k0_pay3 (View.ld x0 rZ) (View.ld x1 rWt) (View.ld x2 rRow) (View.ld x3 rRow) (View.ld x4 rRow)
/-- The filter block as loaded, -/
def cw (x5 : Vec F S640x20 .f32) : Vec F S640x20 .f32 := View.ld x5 rCw
/-- and the filter-bias row. -/
def cb (x6 : Vec F S1x640 .f32) : FVec F S1x640 .f32 := k0_pay4 (View.ld x6 rRow)

/-- The twenty stores, latest first: tap k's slab through row k of the middle axis. -/
def pieces7 (x0 : Vec F S128x2000 .f32) (x1 : Vec F S640x2000 .f32) (x2 x3 x4 : Vec F S1x640 .f32) (x5 : Vec F S640x20 .f32)
    (x6 : Vec F S1x640 .f32) : List (View.Piece (Elt F) S128x20x640 .f32) :=
  [⟨rS19, k0_pay2 (h39 x0 x1 x2 x3 x4) (cw x5) (cb x6)⟩,
   ⟨rS18, k0_pay1 (k0_pay30 (h39 x0 x1 x2 x3 x4) (cw x5) (cb x6))⟩,
   ⟨rS17, k0_pay29 (h39 x0 x1 x2 x3 x4) (cw x5) (cb x6)⟩,
   ⟨rS16, k0_pay28 (h39 x0 x1 x2 x3 x4) (cb x6) (k0_pay27 (cw x5))⟩,
   ⟨rS15, k0_pay26 (h39 x0 x1 x2 x3 x4) (cw x5) (cb x6)⟩,
   ⟨rS14, k0_pay25 (h39 x0 x1 x2 x3 x4) (cw x5) (cb x6)⟩,
   ⟨rS13, k0_pay24 (k0_pay23 (h39 x0 x1 x2 x3 x4) (cw x5) (cb x6)) (Scalar.ofBits .f32 0x00000000#32)⟩,
   ⟨rS12, k0_pay22 (h39 x0 x1 x2 x3 x4) (cw x5) (cb x6)⟩,
   ⟨rS11, k0_pay21 (h39 x0 x1 x2 x3 x4) (cw x5) (cb x6)⟩,
   ⟨rS10, k0_pay20 (k0_pay19 (h39 x0 x1 x2 x3 x4) (cw x5) (cb x6))⟩,
   ⟨rS9, k0_pay18 (h39 x0 x1 x2 x3 x4) (cw x5) (cb x6)⟩,
   ⟨rS8, k0_pay17 (h39 x0 x1 x2 x3 x4) (cw x5) (cb x6)⟩,
   ⟨rS7, k0_pay16 (k0_pay15 (h39 x0 x1 x2 x3 x4) (cw x5) (cb x6))⟩,
   ⟨rS6, k0_pay14 (h39 x0 x1 x2 x3 x4) (cw x5) (cb x6)⟩,
   ⟨rS5, k0_pay13 (h39 x0 x1 x2 x3 x4) (cb x6) (k0_pay12 (cw x5))⟩,
   ⟨rS4, k0_pay11 (h39 x0 x1 x2 x3 x4) (cw x5) (cb x6)⟩,
   ⟨rS3, k0_pay10 (h39 x0 x1 x2 x3 x4) (cw x5) (cb x6)⟩,
   ⟨rS2, k0_pay9 (k0_pay7 (h39 x0 x1 x2 x3 x4) (cw x5) (View.ld x6 rRow)) (k0_pay8 (h39 x0 x1 x2 x3 x4) (cw x5) (View.ld x6 rRow))⟩,
   ⟨rS1, k0_pay6 (h39 x0 x1 x2 x3 x4) (cw x5) (View.ld x6 rRow)⟩,
   ⟨rS0, k0_pay5 (h39 x0 x1 x2 x3 x4) (cw x5) (View.ld x6 rRow)⟩]

def out7 (x0 : Vec F S128x2000 .f32) (x1 : Vec F S640x2000 .f32) (x2 x3 x4 : Vec F S1x640 .f32) (x5 : Vec F S640x20 .f32)
    (x6 : Vec F S1x640 .f32) : Vec F S128x20x640 .f32 := View.canon (pieces7 x0 x1 x2 x3 x4 x5 x6)

/-- The twenty slabs tile the buffer (checked by evaluation, the payloads abstract), so they cover it. -/
theorem cover7' (p0 p1 p2 p3 p4 p5 p6 p7 p8 p9 p10 p11 p12 p13 p14 p15 p16 p17 p18 p19 : Vec F S128x1x640 .f32) (y : S128x20x640.Idx) :
    ∃ pc ∈ ([⟨rS19, p19⟩, ⟨rS18, p18⟩, ⟨rS17, p17⟩, ⟨rS16, p16⟩, ⟨rS15, p15⟩, ⟨rS14, p14⟩, ⟨rS13, p13⟩, ⟨rS12, p12⟩, ⟨rS11, p11⟩, ⟨rS10, p10⟩, ⟨rS9, p9⟩, ⟨rS8, p8⟩, ⟨rS7, p7⟩, ⟨rS6, p6⟩, ⟨rS5, p5⟩, ⟨rS4, p4⟩, ⟨rS3, p3⟩, ⟨rS2, p2⟩, ⟨rS1, p1⟩, ⟨rS0, p0⟩] : List (View.Piece (Elt F) S128x20x640 .f32)), y ∈ pc.1.set :=
  View.cover_of_tiled [⟨rS19, p19⟩, ⟨rS18, p18⟩, ⟨rS17, p17⟩, ⟨rS16, p16⟩, ⟨rS15, p15⟩, ⟨rS14, p14⟩, ⟨rS13, p13⟩, ⟨rS12, p12⟩, ⟨rS11, p11⟩, ⟨rS10, p10⟩, ⟨rS9, p9⟩, ⟨rS8, p8⟩, ⟨rS7, p7⟩, ⟨rS6, p6⟩, ⟨rS5, p5⟩, ⟨rS4, p4⟩, ⟨rS3, p3⟩, ⟨rS2, p2⟩, ⟨rS1, p1⟩, ⟨rS0, p0⟩] S128x1x640.size (by rfl) y

theorem cover7 (x0 : Vec F S128x2000 .f32) (x1 : Vec F S640x2000 .f32) (x2 x3 x4 : Vec F S1x640 .f32) (x5 : Vec F S640x20 .f32)
    (x6 : Vec F S1x640 .f32) (y : S128x20x640.Idx) : ∃ pc ∈ pieces7 x0 x1 x2 x3 x4 x5 x6, y ∈ pc.1.set := cover7' _ _ _ _ _ _ _ _ _ _ _ _ _ _ _ _ _ _ _ _ y

/-! ## The body's triple -/

set_option maxHeartbeats 2000000 in
/-- The body on whole staging memrefs, the seven inputs' at contents `x0 … x6` and the result's at anything, runs to the
    continuation holding the inputs' as they were and the result's at `out7` of them. -/
theorem sound_kernel (c : Dev nD) (E : Set ℕ) (i : grid0.Coords)
    (arg1 : Memref sig .tc .vmem S128x2000 .f32) (harg1 : arg1.IsWhole) (arg2 : Memref sig .tc .vmem S640x2000 .f32) (harg2 : arg2.IsWhole)
    (arg3 : Memref sig .tc .vmem S1x640 .f32) (harg3 : arg3.IsWhole) (arg4 : Memref sig .tc .vmem S1x640 .f32) (harg4 : arg4.IsWhole)
    (arg5 : Memref sig .tc .vmem S1x640 .f32) (harg5 : arg5.IsWhole) (arg6 : Memref sig .tc .vmem S640x20 .f32) (harg6 : arg6.IsWhole)
    (arg7 : Memref sig .tc .vmem S1x640 .f32) (harg7 : arg7.IsWhole) (arg8 : Memref sig .tc .vmem S128x20x640 .f32) (harg8 : arg8.IsWhole)
    (x0 : Vec F S128x2000 .f32) (x1 : Vec F S640x2000 .f32) (x2 x3 x4 : Vec F S1x640 .f32) (x5 : Vec F S640x20 .f32) (x6 : Vec F S1x640 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out7 x0 x1 x2 x3 x4 x5 x6)) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8) K := by
  simp only [cc0__fused_kernel_eq_skeleton]; unfold cc0__fused_kernel_skel
  simp only [k0_part1_eq_skeleton, k0_part2_eq_skeleton, k0_part3_eq_skeleton, k0_part4_eq_skeleton,
    k0_part5_eq_skeleton, k0_part6_eq_skeleton, k0_part7_eq_skeleton, k0_part8_eq_skeleton]
  unfold k0_part1_skel k0_part2_skel k0_part3_skel k0_part4_skel k0_part5_skel k0_part6_skel k0_part7_skel k0_part8_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  unfold out7 pieces7 h39 cw cb
  dsimp only
  exact View.read_writes_eq_canon _ _ _ (cover7' _ _ _ _ _ _ _ _ _ _ _ _ _ _ _ _ _ _ _ _)

end Cert.Kernel.Hand

end
-- ==== Proof.KernelFrame.lean ====
/-
  The frame of the word-level kernel: it runs to the end, faults nowhere, and leaves its seven argument arrays as
  they were. The blocks of every window but the first may overhang their arrays at the last grid point: a fetch
  there fills only the leading part of the staging buffer and leaves the rest at words nothing names. So the proof
  data name what each INPUT buffer holds on the part its transfers move (the array's block) and nothing of the result
  buffer: the body reads the whole input buffers, stores twenty slabs that cover the result buffer, and changes no
  input buffer; what the result array ends holding is not stated here.
-/
import proofs.«143995_j20495583936811_2_alg».proof.Proof.KernelBody
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The result window: nothing of what the body leaves in its buffer is named. -/
def forgets : Fin 8 → Bool := fun w => w.val == 7

/-- A clipped input window's buffer after the body, on the part its transfers move: the array's block; elsewhere a
    filler nothing reads. -/
def blk1 (c : Dev nD) (t : Fin cfg0.N) : S640x2000.Idx → Elt F .f32 :=
  win0_1.fill (grid0.coords t) (fun _ => Scalar.ofBits .f32 0#32) (iblk m c 1 t)
def blk2 (c : Dev nD) (t : Fin cfg0.N) : S1x640.Idx → Elt F .f32 :=
  win0_2.fill (grid0.coords t) (fun _ => Scalar.ofBits .f32 0#32) (iblk m c 2 t)
def blk3 (c : Dev nD) (t : Fin cfg0.N) : S1x640.Idx → Elt F .f32 :=
  win0_3.fill (grid0.coords t) (fun _ => Scalar.ofBits .f32 0#32) (iblk m c 3 t)
def blk4 (c : Dev nD) (t : Fin cfg0.N) : S1x640.Idx → Elt F .f32 :=
  win0_4.fill (grid0.coords t) (fun _ => Scalar.ofBits .f32 0#32) (iblk m c 4 t)
def blk5 (c : Dev nD) (t : Fin cfg0.N) : S640x20.Idx → Elt F .f32 :=
  win0_5.fill (grid0.coords t) (fun _ => Scalar.ofBits .f32 0#32) (iblk m c 5 t)
def blk6 (c : Dev nD) (t : Fin cfg0.N) : S1x640.Idx → Elt F .f32 :=
  win0_6.fill (grid0.coords t) (fun _ => Scalar.ofBits .f32 0#32) (iblk m c 6 t)

/-- The proof data of the one pipeline on core `c`: the arrays as the region finds them; after the body the first
    input's buffer at its block, the clipped inputs' at their blocks filled out, the result's unnamed; the class's
    invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => blk1 m c t
    | ⟨2, _⟩ => blk2 m c t
    | ⟨3, _⟩ => blk3 m c t
    | ⟨4, _⟩ => blk4 m c t
    | ⟨5, _⟩ => blk5 m c t
    | ⟨6, _⟩ => blk6 m c t
    | ⟨7, h⟩ => Pipeline.Dat.unnamed (cfg := cfg0) ⟨7, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = blk1 m c t := by dsimp only [dats]
theorem after0_2 (c : Dev nD) (t : Fin cfg0.N) : (dats m 0 c).after 2 t = blk2 m c t := by dsimp only [dats]
theorem after0_3 (c : Dev nD) (t : Fin cfg0.N) : (dats m 0 c).after 3 t = blk3 m c t := by dsimp only [dats]
theorem after0_4 (c : Dev nD) (t : Fin cfg0.N) : (dats m 0 c).after 4 t = blk4 m c t := by dsimp only [dats]
theorem after0_5 (c : Dev nD) (t : Fin cfg0.N) : (dats m 0 c).after 5 t = blk5 m c t := by dsimp only [dats]
theorem after0_6 (c : Dev nD) (t : Fin cfg0.N) : (dats m 0 c).after 6 t = blk6 m c t := by dsimp only [dats]

/-- The first input's buffer holds its block at every point, fetched there or not. -/
theorem before0_0 (c : Dev nD) (t : Fin cfg0.N) (d) : (dats m 0 c).before 0 t d = iblk m c 0 t :=
  before0_0_of m (dats m 0 c) (A_eq m c 0) (after0_0 m c) t d
/-- A clipped input is fetched at every point: its buffer holds the block on the moved part, `d` elsewhere. -/
theorem before0_1 (c : Dev nD) (t : Fin cfg0.N) (d) :
    (dats m 0 c).before 1 t d = win0_1.fill (grid0.coords t) d (iblk m c 1 t) := by
  unfold Dat.before; rw [if_pos (fetch0_1 t)]; rfl
theorem before0_2 (c : Dev nD) (t : Fin cfg0.N) (d) :
    (dats m 0 c).before 2 t d = win0_2.fill (grid0.coords t) d (iblk m c 2 t) := by
  unfold Dat.before; rw [if_pos (fetch0_2 t)]; rfl
theorem before0_3 (c : Dev nD) (t : Fin cfg0.N) (d) :
    (dats m 0 c).before 3 t d = win0_3.fill (grid0.coords t) d (iblk m c 3 t) := by
  unfold Dat.before; rw [if_pos (fetch0_3 t)]; rfl
theorem before0_4 (c : Dev nD) (t : Fin cfg0.N) (d) :
    (dats m 0 c).before 4 t d = win0_4.fill (grid0.coords t) d (iblk m c 4 t) := by
  unfold Dat.before; rw [if_pos (fetch0_4 t)]; rfl
theorem before0_5 (c : Dev nD) (t : Fin cfg0.N) (d) :
    (dats m 0 c).before 5 t d = win0_5.fill (grid0.coords t) d (iblk m c 5 t) := by
  unfold Dat.before; rw [if_pos (fetch0_5 t)]; rfl
theorem before0_6 (c : Dev nD) (t : Fin cfg0.N) (d) :
    (dats m 0 c).before 6 t d = win0_6.fill (grid0.coords t) d (iblk m c 6 t) := by
  unfold Dat.before; rw [if_pos (fetch0_6 t)]; rfl

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ X, owns (c : Thread nD τ) (st0_7 t) fullShare X))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t))))
    ∗ (∃ d, owns (c : Thread nD τ) (st0_4 t) fullShare (win0_4.fill (grid0.coords t) d (win0_4.cut (grid0.coords t) ((dats m 0 c).after 4 t))))
    ∗ (∃ d, owns (c : Thread nD τ) (st0_5 t) fullShare (win0_5.fill (grid0.coords t) d (win0_5.cut (grid0.coords t) ((dats m 0 c).after 5 t))))
    ∗ (∃ d, owns (c : Thread nD τ) (st0_6 t) fullShare (win0_6.fill (grid0.coords t) d (win0_6.cut (grid0.coords t) ((dats m 0 c).after 6 t))))
    ∗ (∃ X, owns (c : Thread nD τ) (st0_7 t) fullShare X))

/-- The body at any point: each input buffer is handed over at its block filled out with whatever the fetch left
    past the array's end, and handed back unchanged — on the moved part that is the block, all the obligation of a
    clipped window states. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩, ⟨%X7, H7⟩⟩
  rw [before0_0 m c t d0, before0_1 m c t d1, before0_2 m c t d2, before0_3 m c t d3, before0_4 m c t d4,
    before0_5 m c t d5, before0_6 m c t d6]
  iapply (sound_kernel (F := F) c Set.univ (grid0.coords t) _ _ _ _ _ _ _ _ _ _ _ _ _ _ _ _ (iblk m c 0 t)
    (win0_1.fill (grid0.coords t) d1 (iblk m c 1 t)) (win0_2.fill (grid0.coords t) d2 (iblk m c 2 t))
    (win0_3.fill (grid0.coords t) d3 (iblk m c 3 t)) (win0_4.fill (grid0.coords t) d4 (iblk m c 4 t))
    (win0_5.fill (grid0.coords t) d5 (iblk m c 5 t)) (win0_6.fill (grid0.coords t) d6 (iblk m c 6 t)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists X7; iexact H7
  iintro ⟨H0, H1, H2, H3, H4, H5, H6, H7⟩
  isplitl [HΦ]; · iexact HΦ
  isplitl [Ho]; · iexact Ho
  isplitl [H0]; · iexact H0
  isplitl [H1]
  · iexists d1
    rw [show win0_1.cut (grid0.coords t) (blk1 m c t) = iblk m c 1 t from win0_1.cut_fill _ _ _]
    iexact H1
  isplitl [H2]
  · iexists d2
    rw [show win0_2.cut (grid0.coords t) (blk2 m c t) = iblk m c 2 t from win0_2.cut_fill _ _ _]
    iexact H2
  isplitl [H3]
  · iexists d3
    rw [show win0_3.cut (grid0.coords t) (blk3 m c t) = iblk m c 3 t from win0_3.cut_fill _ _ _]
    iexact H3
  isplitl [H4]
  · iexists d4
    rw [show win0_4.cut (grid0.coords t) (blk4 m c t) = iblk m c 4 t from win0_4.cut_fill _ _ _]
    iexact H4
  isplitl [H5]
  · iexists d5
    rw [show win0_5.cut (grid0.coords t) (blk5 m c t) = iblk m c 5 t from win0_5.cut_fill _ _ _]
    iexact H5
  isplitl [H6]
  · iexists d6
    rw [show win0_6.cut (grid0.coords t) (blk6 m c t) = iblk m c 6 t from win0_6.cut_fill _ _ _]
    iexact H6
  iexists _; iexact H7

/-- The library's body obligation, at every point. -/
theorem body_obligation (c : Dev nD) :
    BodyObligationLoose (dats (F := F) m 0 c) (defs₀ (F := F)) Variants.none () Set.univ forgets := fun t => by
  rw [bigSep_W0, bigSep_W0]
  exact sound_body m c t

/-! ## The run and the frame -/

/-- The buffers the host lines after the region write. -/
def tailWrites : Finset (Ref sig .tc) := {main_v5, main_v6}

theorem sfx_T : ∀ ops ∈ ([hostOps1] : List (List (HloOp τ sig (Elt F)))), ∀ op ∈ ops, ∀ b : Ref sig .tc,
    Proc.devRef .tc b ∈ op.writes → b ∈ tailWrites := by
  intro ops hops op hop b hb
  simp only [List.mem_cons, List.mem_nil_iff, or_false] at hops
  rcases hops with rfl
  simp only [hostOps1, List.mem_cons, List.mem_nil_iff, or_false] at hop
  rcases hop with rfl | rfl
  · simp only [StableHlo.unary_writes, Finset.mem_singleton] at hb
    rw [Proc.devRef_injective _ hb]; exact Finset.mem_insert_self _ _
  · simp only [StableHlo.reshape_writes, Finset.mem_singleton] at hb
    rw [Proc.devRef_injective _ hb]; exact Finset.mem_insert_of_mem (Finset.mem_singleton_self _)

set_option backward.isDefEq.respectTransparency.types false in
/-- Every weakly fair execution of @main terminates; every input array of the pipeline ends unchanged, nothing is
    stated of the result array, and every other unscoped buffer the later host lines do not write ends as the region
    found it. -/
theorem run_main : θ_run defs (onTc (τ := τ) (main (F := F))) (s₀ m ρ)
    (Pipeline.RDat.FramePostR (cfgs 0) (fun c => (dats m 0 c).toRForget forgets) tailWrites (fun c b => V0 m c (Proc.devRef .tc b))) :=
  Pipeline.RDat.θ_run_frame_around_T cfgs (0 : Fin 1) launch0 defs₀ Variants.none (fun c => (dats m 0 c).toRForget forgets) tailWrites m ρ main
    (hbody := fun c => (body_obligation m c).toRForget) (hshare := fun c => ((dats m 0 c).toRForget forgets).share_full fun _ => rfl)
    (howed := fun _ _ => rfl) (V₀ := V0 m) (opss := [hostOps1]) (hsub := sfx_sub) (hfresh := sfx_fresh) (hkeep := sfx_keeps)
    (hT := sfx_T) (hmain := hmain m Variants.none) (hA := A_eq m) (hΦ := fun _ _ => rfl)

/-- THE FRAME: the run's post read at the seven argument arrays — three are staged by windows (inputs: they end at
    their entry contents), four are read only by host lines before the region and written by none after it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      (Eq.mp (congrFun (((dats m 0 c).toRForget forgets).ArrAt_in 0 rfl _) _) ((h c).1 0)).trans ((A_eq m c 0).trans (V_main_arg0 m c)),
      (Eq.mp (congrFun (((dats m 0 c).toRForget forgets).ArrAt_in 1 rfl _) _) ((h c).1 1)).trans ((A_eq m c 1).trans (V_main_arg1 m c)),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      (Eq.mp (congrFun (((dats m 0 c).toRForget forgets).ArrAt_in 5 rfl _) _) ((h c).1 5)).trans ((A_eq m c 5).trans (V_main_arg5 m c)),
      ((h c).2 main_arg6 (Finset.mem_sdiff.mpr ⟨Pipeline.mem_restRefs_of main_arg6 (by decide) (by decide), by decide⟩)).trans (V_main_arg6 m c)⟩)
    (run_main m ρ)

end Cert.Kernel.Hand

end
-- ==== Proof.IdealBody.lean ====
/-
  The kernel body of the fused decoder on any staging buffers: seven whole loads (the latent block, a block of 640
  weight rows, the bias / scale / shift rows, a block of 640 filter rows and the filter-bias row), then for each of the
  twenty filter taps k one store of a [128, 1, 640] slab into the result buffer at row k of its middle axis. What the
  result buffer holds afterwards is the canon of those twenty stores over the slabs' payloads; the slabs tile the buffer.
-/
import proofs.«143995_j20495583936811_2_alg».proof.Proof.Gen.KernelIdeal.Frame
import proofs.«143995_j20495583936811_2_alg».proof.Proof.Gen.KernelIdeal.Skeleton
import Idealize.ShloMosaic.Lib.Pipeline.Frame
import Idealize.ShloMosaic.Lib.Exec.Geometry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The rectangles the body reads and writes through -/

abbrev rZ : Rect S128x2000 := Rect.unit (s := S128x2000) ![0, 0] S128x2000.size inb_S128x2000_S128x2000_0_0
abbrev rWt : Rect S640x2000 := Rect.unit (s := S640x2000) ![0, 0] S640x2000.size inb_S640x2000_S640x2000_0_0
abbrev rRow : Rect S1x640 := Rect.unit (s := S1x640) ![0, 0] S1x640.size inb_S1x640_S1x640_0_0
abbrev rCw : Rect S640x20 := Rect.unit (s := S640x20) ![0, 0] S640x20.size inb_S640x20_S640x20_0_0
abbrev rS0 : Rect S128x20x640 := Rect.unit (s := S128x20x640) ![0, 0, 0] S128x1x640.size inb_S128x20x640_S128x1x640_0_0_0
abbrev rS1 : Rect S128x20x640 := Rect.unit (s := S128x20x640) ![0, 1, 0] S128x1x640.size inb_S128x20x640_S128x1x640_0_1_0
abbrev rS2 : Rect S128x20x640 := Rect.unit (s := S128x20x640) ![0, 2, 0] S128x1x640.size inb_S128x20x640_S128x1x640_0_2_0
abbrev rS3 : Rect S128x20x640 := Rect.unit (s := S128x20x640) ![0, 3, 0] S128x1x640.size inb_S128x20x640_S128x1x640_0_3_0
abbrev rS4 : Rect S128x20x640 := Rect.unit (s := S128x20x640) ![0, 4, 0] S128x1x640.size inb_S128x20x640_S128x1x640_0_4_0
abbrev rS5 : Rect S128x20x640 := Rect.unit (s := S128x20x640) ![0, 5, 0] S128x1x640.size inb_S128x20x640_S128x1x640_0_5_0
abbrev rS6 : Rect S128x20x640 := Rect.unit (s := S128x20x640) ![0, 6, 0] S128x1x640.size inb_S128x20x640_S128x1x640_0_6_0
abbrev rS7 : Rect S128x20x640 := Rect.unit (s := S128x20x640) ![0, 7, 0] S128x1x640.size inb_S128x20x640_S128x1x640_0_7_0
abbrev rS8 : Rect S128x20x640 := Rect.unit (s := S128x20x640) ![0, 8, 0] S128x1x640.size inb_S128x20x640_S128x1x640_0_8_0
abbrev rS9 : Rect S128x20x640 := Rect.unit (s := S128x20x640) ![0, 9, 0] S128x1x640.size inb_S128x20x640_S128x1x640_0_9_0
abbrev rS10 : Rect S128x20x640 := Rect.unit (s := S128x20x640) ![0, 10, 0] S128x1x640.size inb_S128x20x640_S128x1x640_0_10_0
abbrev rS11 : Rect S128x20x640 := Rect.unit (s := S128x20x640) ![0, 11, 0] S128x1x640.size inb_S128x20x640_S128x1x640_0_11_0
abbrev rS12 : Rect S128x20x640 := Rect.unit (s := S128x20x640) ![0, 12, 0] S128x1x640.size inb_S128x20x640_S128x1x640_0_12_0
abbrev rS13 : Rect S128x20x640 := Rect.unit (s := S128x20x640) ![0, 13, 0] S128x1x640.size inb_S128x20x640_S128x1x640_0_13_0
abbrev rS14 : Rect S128x20x640 := Rect.unit (s := S128x20x640) ![0, 14, 0] S128x1x640.size inb_S128x20x640_S128x1x640_0_14_0
abbrev rS15 : Rect S128x20x640 := Rect.unit (s := S128x20x640) ![0, 15, 0] S128x1x640.size inb_S128x20x640_S128x1x640_0_15_0
abbrev rS16 : Rect S128x20x640 := Rect.unit (s := S128x20x640) ![0, 16, 0] S128x1x640.size inb_S128x20x640_S128x1x640_0_16_0
abbrev rS17 : Rect S128x20x640 := Rect.unit (s := S128x20x640) ![0, 17, 0] S128x1x640.size inb_S128x20x640_S128x1x640_0_17_0
abbrev rS18 : Rect S128x20x640 := Rect.unit (s := S128x20x640) ![0, 18, 0] S128x1x640.size inb_S128x20x640_S128x1x640_0_18_0
abbrev rS19 : Rect S128x20x640 := Rect.unit (s := S128x20x640) ![0, 19, 0] S128x1x640.size inb_S128x20x640_S128x1x640_0_19_0

/-! ## What the result buffer holds after the body -/

/-- The normalised, activated hidden block: the body's value before the taps, of the five buffers it reads. -/
def h39 (x0 : Vec F S128x2000 .f32) (x1 : Vec F S640x2000 .f32) (x2 x3 x4 : Vec F S1x640 .f32) : FVec F S128x640 .f32 :=
  k0_pay3 (View.ld x0 rZ) (View.ld x1 rWt) (View.ld x2 rRow) (View.ld x3 rRow) (View.ld x4 rRow)
/-- The filter block as loaded, -/
def cw (x5 : Vec F S640x20 .f32) : Vec F S640x20 .f32 := View.ld x5 rCw
/-- and the filter-bias row. -/
def cb (x6 : Vec F S1x640 .f32) : FVec F S1x640 .f32 := k0_pay4 (View.ld x6 rRow)

/-- The twenty stores, latest first: tap k's slab through row k of the middle axis. -/
def pieces7 (x0 : Vec F S128x2000 .f32) (x1 : Vec F S640x2000 .f32) (x2 x3 x4 : Vec F S1x640 .f32) (x5 : Vec F S640x20 .f32)
    (x6 : Vec F S1x640 .f32) : List (View.Piece (Elt F) S128x20x640 .f32) :=
  [⟨rS19, k0_pay2 (h39 x0 x1 x2 x3 x4) (cw x5) (cb x6)⟩,
   ⟨rS18, k0_pay1 (k0_pay30 (h39 x0 x1 x2 x3 x4) (cw x5) (cb x6))⟩,
   ⟨rS17, k0_pay29 (h39 x0 x1 x2 x3 x4) (cw x5) (cb x6)⟩,
   ⟨rS16, k0_pay28 (h39 x0 x1 x2 x3 x4) (cb x6) (k0_pay27 (cw x5))⟩,
   ⟨rS15, k0_pay26 (h39 x0 x1 x2 x3 x4) (cw x5) (cb x6)⟩,
   ⟨rS14, k0_pay25 (h39 x0 x1 x2 x3 x4) (cw x5) (cb x6)⟩,
   ⟨rS13, k0_pay24 (k0_pay23 (h39 x0 x1 x2 x3 x4) (cw x5) (cb x6)) (Scalar.ofBits .f32 0x00000000#32)⟩,
   ⟨rS12, k0_pay22 (h39 x0 x1 x2 x3 x4) (cw x5) (cb x6)⟩,
   ⟨rS11, k0_pay21 (h39 x0 x1 x2 x3 x4) (cw x5) (cb x6)⟩,
   ⟨rS10, k0_pay20 (k0_pay19 (h39 x0 x1 x2 x3 x4) (cw x5) (cb x6))⟩,
   ⟨rS9, k0_pay18 (h39 x0 x1 x2 x3 x4) (cw x5) (cb x6)⟩,
   ⟨rS8, k0_pay17 (h39 x0 x1 x2 x3 x4) (cw x5) (cb x6)⟩,
   ⟨rS7, k0_pay16 (k0_pay15 (h39 x0 x1 x2 x3 x4) (cw x5) (cb x6))⟩,
   ⟨rS6, k0_pay14 (h39 x0 x1 x2 x3 x4) (cw x5) (cb x6)⟩,
   ⟨rS5, k0_pay13 (h39 x0 x1 x2 x3 x4) (cb x6) (k0_pay12 (cw x5))⟩,
   ⟨rS4, k0_pay11 (h39 x0 x1 x2 x3 x4) (cw x5) (cb x6)⟩,
   ⟨rS3, k0_pay10 (h39 x0 x1 x2 x3 x4) (cw x5) (cb x6)⟩,
   ⟨rS2, k0_pay9 (k0_pay7 (h39 x0 x1 x2 x3 x4) (cw x5) (View.ld x6 rRow)) (k0_pay8 (h39 x0 x1 x2 x3 x4) (cw x5) (View.ld x6 rRow))⟩,
   ⟨rS1, k0_pay6 (h39 x0 x1 x2 x3 x4) (cw x5) (View.ld x6 rRow)⟩,
   ⟨rS0, k0_pay5 (h39 x0 x1 x2 x3 x4) (cw x5) (View.ld x6 rRow)⟩]

def out7 (x0 : Vec F S128x2000 .f32) (x1 : Vec F S640x2000 .f32) (x2 x3 x4 : Vec F S1x640 .f32) (x5 : Vec F S640x20 .f32)
    (x6 : Vec F S1x640 .f32) : Vec F S128x20x640 .f32 := View.canon (pieces7 x0 x1 x2 x3 x4 x5 x6)

/-- The twenty slabs tile the buffer (checked by evaluation, the payloads abstract), so they cover it. -/
theorem cover7' (p0 p1 p2 p3 p4 p5 p6 p7 p8 p9 p10 p11 p12 p13 p14 p15 p16 p17 p18 p19 : Vec F S128x1x640 .f32) (y : S128x20x640.Idx) :
    ∃ pc ∈ ([⟨rS19, p19⟩, ⟨rS18, p18⟩, ⟨rS17, p17⟩, ⟨rS16, p16⟩, ⟨rS15, p15⟩, ⟨rS14, p14⟩, ⟨rS13, p13⟩, ⟨rS12, p12⟩, ⟨rS11, p11⟩, ⟨rS10, p10⟩, ⟨rS9, p9⟩, ⟨rS8, p8⟩, ⟨rS7, p7⟩, ⟨rS6, p6⟩, ⟨rS5, p5⟩, ⟨rS4, p4⟩, ⟨rS3, p3⟩, ⟨rS2, p2⟩, ⟨rS1, p1⟩, ⟨rS0, p0⟩] : List (View.Piece (Elt F) S128x20x640 .f32)), y ∈ pc.1.set :=
  View.cover_of_tiled [⟨rS19, p19⟩, ⟨rS18, p18⟩, ⟨rS17, p17⟩, ⟨rS16, p16⟩, ⟨rS15, p15⟩, ⟨rS14, p14⟩, ⟨rS13, p13⟩, ⟨rS12, p12⟩, ⟨rS11, p11⟩, ⟨rS10, p10⟩, ⟨rS9, p9⟩, ⟨rS8, p8⟩, ⟨rS7, p7⟩, ⟨rS6, p6⟩, ⟨rS5, p5⟩, ⟨rS4, p4⟩, ⟨rS3, p3⟩, ⟨rS2, p2⟩, ⟨rS1, p1⟩, ⟨rS0, p0⟩] S128x1x640.size (by rfl) y

theorem cover7 (x0 : Vec F S128x2000 .f32) (x1 : Vec F S640x2000 .f32) (x2 x3 x4 : Vec F S1x640 .f32) (x5 : Vec F S640x20 .f32)
    (x6 : Vec F S1x640 .f32) (y : S128x20x640.Idx) : ∃ pc ∈ pieces7 x0 x1 x2 x3 x4 x5 x6, y ∈ pc.1.set := cover7' _ _ _ _ _ _ _ _ _ _ _ _ _ _ _ _ _ _ _ _ y

/-! ## The body's triple -/

set_option maxHeartbeats 2000000 in
/-- The body on whole staging memrefs, the seven inputs' at contents `x0 … x6` and the result's at anything, runs to the
    continuation holding the inputs' as they were and the result's at `out7` of them. -/
theorem sound_kernel (c : Dev nD) (E : Set ℕ) (i : grid0.Coords)
    (arg1 : Memref sig .tc .vmem S128x2000 .f32) (harg1 : arg1.IsWhole) (arg2 : Memref sig .tc .vmem S640x2000 .f32) (harg2 : arg2.IsWhole)
    (arg3 : Memref sig .tc .vmem S1x640 .f32) (harg3 : arg3.IsWhole) (arg4 : Memref sig .tc .vmem S1x640 .f32) (harg4 : arg4.IsWhole)
    (arg5 : Memref sig .tc .vmem S1x640 .f32) (harg5 : arg5.IsWhole) (arg6 : Memref sig .tc .vmem S640x20 .f32) (harg6 : arg6.IsWhole)
    (arg7 : Memref sig .tc .vmem S1x640 .f32) (harg7 : arg7.IsWhole) (arg8 : Memref sig .tc .vmem S128x20x640 .f32) (harg8 : arg8.IsWhole)
    (x0 : Vec F S128x2000 .f32) (x1 : Vec F S640x2000 .f32) (x2 x3 x4 : Vec F S1x640 .f32) (x5 : Vec F S640x20 .f32) (x6 : Vec F S1x640 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out7 x0 x1 x2 x3 x4 x5 x6)) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8) K := by
  simp only [cc0__fused_kernel_eq_skeleton]; unfold cc0__fused_kernel_skel
  simp only [k0_part1_eq_skeleton, k0_part2_eq_skeleton, k0_part3_eq_skeleton, k0_part4_eq_skeleton,
    k0_part5_eq_skeleton, k0_part6_eq_skeleton, k0_part7_eq_skeleton, k0_part8_eq_skeleton]
  unfold k0_part1_skel k0_part2_skel k0_part3_skel k0_part4_skel k0_part5_skel k0_part6_skel k0_part7_skel k0_part8_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  unfold out7 pieces7 h39 cw cb
  dsimp only
  exact View.read_writes_eq_canon _ _ _ (cover7' _ _ _ _ _ _ _ _ _ _ _ _ _ _ _ _ _ _ _ _)

end Cert.KernelIdeal.Hand

end
-- ==== Proof.Decoder.lean ====
/-
  The decoder's mathematics, one entry at a time, on the extended reals.

  A column g of the hidden layer is the batch of 128 pre-activations lin b = Σ_l z(b,l)·w(l) + bias, where w is row g of
  the weight matrix; it is normalised over the batch (mean and biased variance, both quotients by the f32 word of 128; an
  epsilon word added before the reciprocal square root), scaled, shifted and passed through a leaky rectifier whose
  slope is the f32 word of 0.1. Tap k of column g is then hidden·cw(g,k) + cb(g) through the same rectifier and the
  logistic function. Every float literal is kept as its f32 word.
-/
import Idealize.ShloMosaic.PureOps.Ideal
import Idealize.ShloMosaic.Lib.ValueIdx

noncomputable section

namespace Cert.Decoder

open Idealize.ShloMosaic Idealize.ShloMosaic.ValueIdx
open scoped BigOperators

/-- The leaky rectifier: x where 0 ≤ x, else the word of 0.1 times x. -/
def leaky (x : EReal) : EReal :=
  Scalar.select (Ideal.cmp .oge x (Ideal.ofBits .f32 0x00000000#32)) x (Ideal.ofBits .f32 0x3DCCCCCD#32 * x)

/-- The pre-activation of batch row b in the column with weight row w and bias. -/
def lin (z : Fin 128 → Fin 2000 → EReal) (w : Fin 2000 → EReal) (bias : EReal) (b : Fin 128) : EReal :=
  (∑ l : Fin 2000, z b l * w l) + bias

/-- The column's batch mean. -/
def mean (z : Fin 128 → Fin 2000 → EReal) (w : Fin 2000 → EReal) (bias : EReal) : EReal :=
  Ideal.div (∑ b : Fin 128, lin z w bias b) (Ideal.ofBits .f32 0x43000000#32)

/-- The column's biased batch variance. -/
def var (z : Fin 128 → Fin 2000 → EReal) (w : Fin 2000 → EReal) (bias : EReal) : EReal :=
  Ideal.div (∑ b : Fin 128, (lin z w bias b - mean z w bias) * (lin z w bias b - mean z w bias))
    (Ideal.ofBits .f32 0x43000000#32)

/-- The normalised, scaled, shifted and rectified hidden value of batch row b. -/
def hidden (z : Fin 128 → Fin 2000 → EReal) (w : Fin 2000 → EReal) (bias gam bet : EReal) (b : Fin 128) : EReal :=
  leaky ((lin z w bias b - mean z w bias) * Ideal.rsqrt (var z w bias + Ideal.ofBits .f32 0x3727C5AC#32) * gam + bet)

/-- One filter tap of a hidden value. -/
def tap (h cwv cbv : EReal) : EReal := Ideal.logistic (leaky (h * cwv + cbv))

/-- One entry of the result: batch row b, the column given by (w, bias, gam, bet), the tap given by (cwv, cbv). -/
def entry (z : Fin 128 → Fin 2000 → EReal) (w : Fin 2000 → EReal) (bias gam bet cwv cbv : EReal) (b : Fin 128) : EReal :=
  tap (hidden z w bias gam bet b) cwv cbv

/-- The latent array by rows. -/
def rows (z : (⟨2, ![128, 2000]⟩ : Shape).Idx → EReal) : Fin 128 → Fin 2000 → EReal := fun b l => z (ix2 b l)

/-- The region's result as a [128, 20, N] array over N columns whose per-column data are [N, 2000], four [1, N] rows
    and [N, 20]: entry (b, k, g). Used at N = 640 (a block of staged buffers) and at N = 10000 (the whole arrays). -/
def slab {N : Nat} (z : (⟨2, ![128, 2000]⟩ : Shape).Idx → EReal) (W : (⟨2, ![N, 2000]⟩ : Shape).Idx → EReal)
    (bf gm bt : (⟨2, ![1, N]⟩ : Shape).Idx → EReal) (cw : (⟨2, ![N, 20]⟩ : Shape).Idx → EReal)
    (cb : (⟨2, ![1, N]⟩ : Shape).Idx → EReal) : (⟨3, ![128, 20, N]⟩ : Shape).Idx → EReal := fun i =>
  entry (rows z) (fun l => W (ix2 (i 2) l)) (bf (ix2 0 (i 2))) (gm (ix2 0 (i 2))) (bt (ix2 0 (i 2)))
    (cw (ix2 (i 2) (i 1))) (cb (ix2 0 (i 2))) (i 0)

/-- Column and tap of a flat position in a row of 200000 = 10000 · 20 entries. -/
def colOf (q : Fin 200000) : Fin 10000 := ⟨q.val / 20, by have := q.isLt; omega⟩
def tapOf (q : Fin 200000) : Fin 20 := ⟨q.val % 20, Nat.mod_lt _ (by decide)⟩

/-- The whole result, [128, 200000], of the seven argument arrays: entry (b, 20·g + k). -/
def result (z : (⟨2, ![128, 2000]⟩ : Shape).Idx → EReal) (W : (⟨2, ![10000, 2000]⟩ : Shape).Idx → EReal)
    (bf gm bt : (⟨1, ![10000]⟩ : Shape).Idx → EReal) (cw : (⟨2, ![10000, 20]⟩ : Shape).Idx → EReal)
    (cb : (⟨1, ![10000]⟩ : Shape).Idx → EReal) : (⟨2, ![128, 200000]⟩ : Shape).Idx → EReal := fun i =>
  entry (rows z) (fun l => W (ix2 (colOf (i 1)) l)) (bf (ix1 (colOf (i 1)))) (gm (ix1 (colOf (i 1)))) (bt (ix1 (colOf (i 1))))
    (cw (ix2 (colOf (i 1)) (tapOf (i 1)))) (cb (ix1 (colOf (i 1)))) (i 0)

end Cert.Decoder

end
-- ==== Proof.IdealBlocks.lean ====
/-
  The staged blocks of the idealized kernel, read against the whole arrays.

  Grid point t stages columns 640·t … 640·t + 639 of the 10000 columns; at the last point (t = 15) only 400 of them
  exist, the transfers move those, and the rest of each buffer holds words nothing names. An entry (b, k, g) of the
  result block depends on the latent array, on row g of the weight block, on column g of the four row blocks and on
  row g of the filter block: for a column g the transfers move, these are the whole arrays' data of column 640·t + g.
  So the moved part of the result block is the block of ONE whole-array function — whatever the unmoved parts hold.
-/
import proofs.«143995_j20495583936811_2_alg».proof.Proof.IdealBody
import proofs.«143995_j20495583936811_2_alg».proof.Proof.Decoder
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

variable (m : (ℓ : Loc nD τ sig) → Buf (Elt Ideal) ℓ)

/-- The windows' index maps and cut sizes, decided over the sixteen grid points: the block index on the column
    axis is the point, and the number of columns moved is 640, but 400 at the last point. -/
theorem geom : ∀ t : Fin cfg0.N,
    win0_0.index t (0 : Fin 2) = 0
    ∧ win0_0.index t (1 : Fin 2) = 0
    ∧ win0_1.index t (0 : Fin 2) = t.val
    ∧ win0_1.index t (1 : Fin 2) = 0
    ∧ win0_1.xsize (grid0.coords t) (0 : Fin 2) = min 640 (10000 - 640 * t.val)
    ∧ win0_1.xsize (grid0.coords t) (1 : Fin 2) = 2000
    ∧ win0_2.index t (0 : Fin 2) = 0
    ∧ win0_2.index t (1 : Fin 2) = t.val
    ∧ win0_2.xsize (grid0.coords t) (0 : Fin 2) = 1
    ∧ win0_2.xsize (grid0.coords t) (1 : Fin 2) = min 640 (10000 - 640 * t.val)
    ∧ win0_3.index t (0 : Fin 2) = 0
    ∧ win0_3.index t (1 : Fin 2) = t.val
    ∧ win0_3.xsize (grid0.coords t) (0 : Fin 2) = 1
    ∧ win0_3.xsize (grid0.coords t) (1 : Fin 2) = min 640 (10000 - 640 * t.val)
    ∧ win0_4.index t (0 : Fin 2) = 0
    ∧ win0_4.index t (1 : Fin 2) = t.val
    ∧ win0_4.xsize (grid0.coords t) (0 : Fin 2) = 1
    ∧ win0_4.xsize (grid0.coords t) (1 : Fin 2) = min 640 (10000 - 640 * t.val)
    ∧ win0_6.index t (0 : Fin 2) = 0
    ∧ win0_6.index t (1 : Fin 2) = t.val
    ∧ win0_6.xsize (grid0.coords t) (0 : Fin 2) = 1
    ∧ win0_6.xsize (grid0.coords t) (1 : Fin 2) = min 640 (10000 - 640 * t.val)
    ∧ win0_5.index t (0 : Fin 2) = t.val
    ∧ win0_5.index t (1 : Fin 2) = 0
    ∧ win0_5.xsize (grid0.coords t) (0 : Fin 2) = min 640 (10000 - 640 * t.val)
    ∧ win0_5.xsize (grid0.coords t) (1 : Fin 2) = 20
    ∧ win0_7.index t (0 : Fin 3) = 0
    ∧ win0_7.index t (1 : Fin 3) = 0
    ∧ win0_7.index t (2 : Fin 3) = t.val
    ∧ win0_7.xsize (grid0.coords t) (0 : Fin 3) = 128
    ∧ win0_7.xsize (grid0.coords t) (1 : Fin 3) = 20
    ∧ win0_7.xsize (grid0.coords t) (2 : Fin 3) = min 640 (10000 - 640 * t.val) :=
  (by decide +kernel : ∀ t : Fin grid0.N, _)

/-- The region's result array as one function of the arrays the region finds. -/
def regionResult (c : Dev nD) : S128x20x10000.Idx → Elt Ideal .f32 :=
  Cert.Decoder.slab (N := 10000) (V m c main_arg0) (V m c main_arg1) (V m c main_v0) (V m c main_v1) (V m c main_v2)
    (V m c main_arg5) (V m c main_v3)

/-- The first window's block is the whole latent array at every point. -/
theorem read0 (c : Dev nD) (t : Fin cfg0.N) : iblk m c 0 t = V m c main_arg0 := by
  obtain ⟨i00, i01, i10, i11, x10, x11, i20, i21, x20, x21, i30, i31, x30, x31, i40, i41, x40, x41, i60, i61, x60, x61, i50, i51, x50, x51, i70, i71, i72, x70, x71, x72⟩ := geom t
  funext y
  unfold iblk
  rw [View.read_apply]
  refine congrArg (V m c main_arg0) (funext fun a => Fin.ext ?_)
  match a with
  | ⟨0, _⟩ => show win0_0.index t (0 : Fin 2) * 128 + 1 * (y 0).val = (y 0).val; rw [i00]; omega
  | ⟨1, _⟩ => show win0_0.index t (1 : Fin 2) * 2000 + 1 * (y 1).val = (y 1).val; rw [i01]; omega

/-- The weight window's buffer, on the rows its fetch fills, holds the weight rows from 640·t on. -/
theorem read1 (c : Dev nD) (t : Fin cfg0.N) (d : S640x2000.Idx → Elt Ideal .f32) (g : Fin 640) (l : Fin 2000)
    (hg : g.val < min 640 (10000 - 640 * t.val)) (hG : 640 * t.val + g.val < 10000) :
    win0_1.fill (grid0.coords t) d (iblk m c 1 t) (ix2 g l) = V m c main_arg1 (ix2 ⟨640 * t.val + g.val, hG⟩ l) := by
  obtain ⟨i00, i01, i10, i11, x10, x11, i20, i21, x20, x21, i30, i31, x30, x31, i40, i41, x40, x41, i60, i61, x60, x61, i50, i51, x50, x51, i70, i71, i72, x70, x71, x72⟩ := geom t
  have hm : ∀ a : Fin 2, ((ix2 g l : S640x2000.Idx) a).val < win0_1.xsize (grid0.coords t) a := fun a => by
    match a with
    | ⟨0, _⟩ => show g.val < win0_1.xsize (grid0.coords t) (0 : Fin 2); rw [x10]; exact hg
    | ⟨1, _⟩ => show l.val < win0_1.xsize (grid0.coords t) (1 : Fin 2); rw [x11]; exact l.isLt
  unfold Window.fill
  rw [dif_pos ((win0_1.moved_iff _ _).mpr hm)]
  unfold iblk
  rw [View.read_apply]
  refine congrArg (V m c main_arg1) (funext fun a => Fin.ext ?_)
  match a with
  | ⟨0, _⟩ => show win0_1.index t (0 : Fin 2) * 640 + 1 * g.val = 640 * t.val + g.val; rw [i10]; omega
  | ⟨1, _⟩ => show win0_1.index t (1 : Fin 2) * 2000 + 1 * l.val = l.val; rw [i11]; omega

/-- The row window 2's buffer, on the columns its fetch fills, holds the array's row at the column the block starts
    at plus the column in the block. -/
theorem read2 (c : Dev nD) (t : Fin cfg0.N) (d : S1x640.Idx → Elt Ideal .f32) (g : Fin 640)
    (hg : g.val < min 640 (10000 - 640 * t.val)) (hG : 640 * t.val + g.val < 10000) :
    win0_2.fill (grid0.coords t) d (iblk m c 2 t) (ix2 (0 : Fin 1) g) = V m c main_v0 (ix2 (0 : Fin 1) ⟨640 * t.val + g.val, hG⟩) := by
  obtain ⟨i00, i01, i10, i11, x10, x11, i20, i21, x20, x21, i30, i31, x30, x31, i40, i41, x40, x41, i60, i61, x60, x61, i50, i51, x50, x51, i70, i71, i72, x70, x71, x72⟩ := geom t
  have hm : ∀ a : Fin 2, ((ix2 (0 : Fin 1) g : S1x640.Idx) a).val < win0_2.xsize (grid0.coords t) a := fun a => by
    match a with
    | ⟨0, _⟩ => show (0 : Nat) < win0_2.xsize (grid0.coords t) (0 : Fin 2); rw [x20]; exact Nat.one_pos
    | ⟨1, _⟩ => show g.val < win0_2.xsize (grid0.coords t) (1 : Fin 2); rw [x21]; exact hg
  unfold Window.fill
  rw [dif_pos ((win0_2.moved_iff _ _).mpr hm)]
  unfold iblk
  rw [View.read_apply]
  refine congrArg (V m c main_v0) (funext fun a => Fin.ext ?_)
  match a with
  | ⟨0, _⟩ => show win0_2.index t (0 : Fin 2) * 1 + 1 * 0 = 0; rw [i20]
  | ⟨1, _⟩ => show win0_2.index t (1 : Fin 2) * 640 + 1 * g.val = 640 * t.val + g.val; rw [i21]; omega

/-- The row window 3's buffer, on the columns its fetch fills, holds the array's row at the column the block starts
    at plus the column in the block. -/
theorem read3 (c : Dev nD) (t : Fin cfg0.N) (d : S1x640.Idx → Elt Ideal .f32) (g : Fin 640)
    (hg : g.val < min 640 (10000 - 640 * t.val)) (hG : 640 * t.val + g.val < 10000) :
    win0_3.fill (grid0.coords t) d (iblk m c 3 t) (ix2 (0 : Fin 1) g) = V m c main_v1 (ix2 (0 : Fin 1) ⟨640 * t.val + g.val, hG⟩) := by
  obtain ⟨i00, i01, i10, i11, x10, x11, i20, i21, x20, x21, i30, i31, x30, x31, i40, i41, x40, x41, i60, i61, x60, x61, i50, i51, x50, x51, i70, i71, i72, x70, x71, x72⟩ := geom t
  have hm : ∀ a : Fin 2, ((ix2 (0 : Fin 1) g : S1x640.Idx) a).val < win0_3.xsize (grid0.coords t) a := fun a => by
    match a with
    | ⟨0, _⟩ => show (0 : Nat) < win0_3.xsize (grid0.coords t) (0 : Fin 2); rw [x30]; exact Nat.one_pos
    | ⟨1, _⟩ => show g.val < win0_3.xsize (grid0.coords t) (1 : Fin 2); rw [x31]; exact hg
  unfold Window.fill
  rw [dif_pos ((win0_3.moved_iff _ _).mpr hm)]
  unfold iblk
  rw [View.read_apply]
  refine congrArg (V m c main_v1) (funext fun a => Fin.ext ?_)
  match a with
  | ⟨0, _⟩ => show win0_3.index t (0 : Fin 2) * 1 + 1 * 0 = 0; rw [i30]
  | ⟨1, _⟩ => show win0_3.index t (1 : Fin 2) * 640 + 1 * g.val = 640 * t.val + g.val; rw [i31]; omega

/-- The row window 4's buffer, on the columns its fetch fills, holds the array's row at the column the block starts
    at plus the column in the block. -/
theorem read4 (c : Dev nD) (t : Fin cfg0.N) (d : S1x640.Idx → Elt Ideal .f32) (g : Fin 640)
    (hg : g.val < min 640 (10000 - 640 * t.val)) (hG : 640 * t.val + g.val < 10000) :
    win0_4.fill (grid0.coords t) d (iblk m c 4 t) (ix2 (0 : Fin 1) g) = V m c main_v2 (ix2 (0 : Fin 1) ⟨640 * t.val + g.val, hG⟩) := by
  obtain ⟨i00, i01, i10, i11, x10, x11, i20, i21, x20, x21, i30, i31, x30, x31, i40, i41, x40, x41, i60, i61, x60, x61, i50, i51, x50, x51, i70, i71, i72, x70, x71, x72⟩ := geom t
  have hm : ∀ a : Fin 2, ((ix2 (0 : Fin 1) g : S1x640.Idx) a).val < win0_4.xsize (grid0.coords t) a := fun a => by
    match a with
    | ⟨0, _⟩ => show (0 : Nat) < win0_4.xsize (grid0.coords t) (0 : Fin 2); rw [x40]; exact Nat.one_pos
    | ⟨1, _⟩ => show g.val < win0_4.xsize (grid0.coords t) (1 : Fin 2); rw [x41]; exact hg
  unfold Window.fill
  rw [dif_pos ((win0_4.moved_iff _ _).mpr hm)]
  unfold iblk
  rw [View.read_apply]
  refine congrArg (V m c main_v2) (funext fun a => Fin.ext ?_)
  match a with
  | ⟨0, _⟩ => show win0_4.index t (0 : Fin 2) * 1 + 1 * 0 = 0; rw [i40]
  | ⟨1, _⟩ => show win0_4.index t (1 : Fin 2) * 640 + 1 * g.val = 640 * t.val + g.val; rw [i41]; omega

/-- The row window 6's buffer, on the columns its fetch fills, holds the array's row at the column the block starts
    at plus the column in the block. -/
theorem read6 (c : Dev nD) (t : Fin cfg0.N) (d : S1x640.Idx → Elt Ideal .f32) (g : Fin 640)
    (hg : g.val < min 640 (10000 - 640 * t.val)) (hG : 640 * t.val + g.val < 10000) :
    win0_6.fill (grid0.coords t) d (iblk m c 6 t) (ix2 (0 : Fin 1) g) = V m c main_v3 (ix2 (0 : Fin 1) ⟨640 * t.val + g.val, hG⟩) := by
  obtain ⟨i00, i01, i10, i11, x10, x11, i20, i21, x20, x21, i30, i31, x30, x31, i40, i41, x40, x41, i60, i61, x60, x61, i50, i51, x50, x51, i70, i71, i72, x70, x71, x72⟩ := geom t
  have hm : ∀ a : Fin 2, ((ix2 (0 : Fin 1) g : S1x640.Idx) a).val < win0_6.xsize (grid0.coords t) a := fun a => by
    match a with
    | ⟨0, _⟩ => show (0 : Nat) < win0_6.xsize (grid0.coords t) (0 : Fin 2); rw [x60]; exact Nat.one_pos
    | ⟨1, _⟩ => show g.val < win0_6.xsize (grid0.coords t) (1 : Fin 2); rw [x61]; exact hg
  unfold Window.fill
  rw [dif_pos ((win0_6.moved_iff _ _).mpr hm)]
  unfold iblk
  rw [View.read_apply]
  refine congrArg (V m c main_v3) (funext fun a => Fin.ext ?_)
  match a with
  | ⟨0, _⟩ => show win0_6.index t (0 : Fin 2) * 1 + 1 * 0 = 0; rw [i60]
  | ⟨1, _⟩ => show win0_6.index t (1 : Fin 2) * 640 + 1 * g.val = 640 * t.val + g.val; rw [i61]; omega

/-- The filter window's buffer, on the rows its fetch fills, holds the filter rows from 640·t on. -/
theorem read5 (c : Dev nD) (t : Fin cfg0.N) (d : S640x20.Idx → Elt Ideal .f32) (g : Fin 640) (k : Fin 20)
    (hg : g.val < min 640 (10000 - 640 * t.val)) (hG : 640 * t.val + g.val < 10000) :
    win0_5.fill (grid0.coords t) d (iblk m c 5 t) (ix2 g k) = V m c main_arg5 (ix2 ⟨640 * t.val + g.val, hG⟩ k) := by
  obtain ⟨i00, i01, i10, i11, x10, x11, i20, i21, x20, x21, i30, i31, x30, x31, i40, i41, x40, x41, i60, i61, x60, x61, i50, i51, x50, x51, i70, i71, i72, x70, x71, x72⟩ := geom t
  have hm : ∀ a : Fin 2, ((ix2 g k : S640x20.Idx) a).val < win0_5.xsize (grid0.coords t) a := fun a => by
    match a with
    | ⟨0, _⟩ => show g.val < win0_5.xsize (grid0.coords t) (0 : Fin 2); rw [x50]; exact hg
    | ⟨1, _⟩ => show k.val < win0_5.xsize (grid0.coords t) (1 : Fin 2); rw [x51]; exact k.isLt
  unfold Window.fill
  rw [dif_pos ((win0_5.moved_iff _ _).mpr hm)]
  unfold iblk
  rw [View.read_apply]
  refine congrArg (V m c main_arg5) (funext fun a => Fin.ext ?_)
  match a with
  | ⟨0, _⟩ => show win0_5.index t (0 : Fin 2) * 640 + 1 * g.val = 640 * t.val + g.val; rw [i50]; omega
  | ⟨1, _⟩ => show win0_5.index t (1 : Fin 2) * 20 + 1 * k.val = k.val; rw [i51]; omega

/-- The specification function at an index given by coordinates. -/
theorem slab_apply {N : Nat} (z : (⟨2, ![128, 2000]⟩ : Shape).Idx → EReal) (W : (⟨2, ![N, 2000]⟩ : Shape).Idx → EReal)
    (bf gm bt : (⟨2, ![1, N]⟩ : Shape).Idx → EReal) (cw : (⟨2, ![N, 20]⟩ : Shape).Idx → EReal)
    (cb : (⟨2, ![1, N]⟩ : Shape).Idx → EReal) (b : Fin 128) (k : Fin 20) (g : Fin N) :
    Cert.Decoder.slab z W bf gm bt cw cb (ix3 b k g)
      = Cert.Decoder.entry (Cert.Decoder.rows z) (fun l => W (ix2 g l)) (bf (ix2 (0 : Fin 1) g)) (gm (ix2 (0 : Fin 1) g))
          (bt (ix2 (0 : Fin 1) g)) (cw (ix2 g k)) (cb (ix2 (0 : Fin 1) g)) b := rfl

/-- The moved part of a result block's contents, read at an index of the cut block. -/
theorem cut7_apply {α : Type} (t : Fin cfg0.N) (X : S128x20x640.Idx → α) (j : (win0_7.xblock (grid0.coords t)).Idx)
    (h0 : (j 0).val < 128) (h1 : (j 1).val < 20) (h2 : (j 2).val < 640) :
    win0_7.cut (grid0.coords t) X j = X (ix3 (⟨(j 0).val, h0⟩ : Fin 128) (⟨(j 1).val, h1⟩ : Fin 20) (⟨(j 2).val, h2⟩ : Fin 640)) :=
  congrArg X (funext fun a => by
    match a with
    | ⟨0, _⟩ => rfl
    | ⟨1, _⟩ => rfl
    | ⟨2, _⟩ => rfl)

/-- Where an index of point t's cut result block sits in the result array. -/
theorem emb7 (t : Fin cfg0.N) (j : (win0_7.xblock (grid0.coords t)).Idx)
    (h0 : (j 0).val < 128) (h1 : (j 1).val < 20) (hG : 640 * t.val + (j 2).val < 10000) :
    (win0_7.blk t).view.emb j = ix3 (⟨(j 0).val, h0⟩ : Fin 128) (⟨(j 1).val, h1⟩ : Fin 20) (⟨640 * t.val + (j 2).val, hG⟩ : Fin 10000) := by
  obtain ⟨i00, i01, i10, i11, x10, x11, i20, i21, x20, x21, i30, i31, x30, x31, i40, i41, x40, x41, i60, i61, x60, x61, i50, i51, x50, x51, i70, i71, i72, x70, x71, x72⟩ := geom t
  funext a; apply Fin.ext
  match a with
  | ⟨0, _⟩ => show win0_7.index t (0 : Fin 3) * 128 + 1 * (j 0).val = (j 0).val; rw [i70]; omega
  | ⟨1, _⟩ => show win0_7.index t (1 : Fin 3) * 20 + 1 * (j 1).val = (j 1).val; rw [i71]; omega
  | ⟨2, _⟩ => show win0_7.index t (2 : Fin 3) * 640 + 1 * (j 2).val = 640 * t.val + (j 2).val; rw [i72]; omega

/-- THE MOVED PART OF THE RESULT BLOCK at point t, computed from the staged buffers however their unmoved parts are
    filled, is block t of `regionResult`. -/
theorem cut_slab (c : Dev nD) (t : Fin cfg0.N) (d1 : S640x2000.Idx → Elt Ideal .f32) (d2 d3 d4 : S1x640.Idx → Elt Ideal .f32)
    (d5 : S640x20.Idx → Elt Ideal .f32) (d6 : S1x640.Idx → Elt Ideal .f32) :
    win0_7.cut (grid0.coords t)
        (Cert.Decoder.slab (N := 640) (iblk m c 0 t) (win0_1.fill (grid0.coords t) d1 (iblk m c 1 t))
          (win0_2.fill (grid0.coords t) d2 (iblk m c 2 t)) (win0_3.fill (grid0.coords t) d3 (iblk m c 3 t))
          (win0_4.fill (grid0.coords t) d4 (iblk m c 4 t)) (win0_5.fill (grid0.coords t) d5 (iblk m c 5 t))
          (win0_6.fill (grid0.coords t) d6 (iblk m c 6 t)))
      = (win0_7.blk t).view.read (Elt Ideal) (regionResult m c) := by
  obtain ⟨i00, i01, i10, i11, x10, x11, i20, i21, x20, x21, i30, i31, x30, x31, i40, i41, x40, x41, i60, i61, x60, x61, i50, i51, x50, x51, i70, i71, i72, x70, x71, x72⟩ := geom t
  funext j
  have hj0 : (j 0).val < 128 := x70 ▸ (show (j 0).val < win0_7.xsize (grid0.coords t) (0 : Fin 3) from (j 0).isLt)
  have hj1 : (j 1).val < 20 := x71 ▸ (show (j 1).val < win0_7.xsize (grid0.coords t) (1 : Fin 3) from (j 1).isLt)
  have hj2 : (j 2).val < min 640 (10000 - 640 * t.val) :=
    x72 ▸ (show (j 2).val < win0_7.xsize (grid0.coords t) (2 : Fin 3) from (j 2).isLt)
  have ht : t.val < 16 := t.isLt
  have hg640 : (j 2).val < 640 := lt_of_lt_of_le hj2 (min_le_left _ _)
  have hG : 640 * t.val + (j 2).val < 10000 := by have := lt_of_lt_of_le hj2 (min_le_right _ _); omega
  rw [cut7_apply t _ j hj0 hj1 hg640, View.read_apply, emb7 t j hj0 hj1 hG]
  unfold regionResult
  rw [slab_apply, slab_apply]
  have e1 : (fun l : Fin 2000 => win0_1.fill (grid0.coords t) d1 (iblk m c 1 t) (ix2 (⟨(j 2).val, hg640⟩ : Fin 640) l))
      = fun l : Fin 2000 => V m c main_arg1 (ix2 (⟨640 * t.val + (j 2).val, hG⟩ : Fin 10000) l) :=
    funext fun l => read1 m c t d1 ⟨(j 2).val, hg640⟩ l hj2 hG
  rw [read0 m c t, e1, read2 m c t d2 ⟨(j 2).val, hg640⟩ hj2 hG, read3 m c t d3 ⟨(j 2).val, hg640⟩ hj2 hG,
    read4 m c t d4 ⟨(j 2).val, hg640⟩ hj2 hG, read5 m c t d5 ⟨(j 2).val, hg640⟩ ⟨(j 1).val, hj1⟩ hj2 hG,
    read6 m c t d6 ⟨(j 2).val, hg640⟩ hj2 hG]
  rfl

end Cert.KernelIdeal.Hand

end
-- ==== Proof.LibRowDot.lean ====
/-
  A matrix product against a row-major weight, read at an index.

  The dimension numbers of an [a, c] × [b, c] → [a, b] product contract axis 1 of BOTH operands and have no batch
  axis: the right operand is a stack of b rows of length c, and result entry (p, q) is the inner product of the left
  operand's row p with the right operand's row q. At result index (p, q) and contraction position k the left operand
  is read at (p, k) and the right operand at (q, k), so the sum over the contraction shape's one-axis index set is
  the sum over k : Fin c of lhs (p, k) * rhs (q, k) — in any commutative additive monoid with a product, the
  extended reals included. The statement is over variable extents; a printed record with these six lists is this
  one by reflexivity.
-/
import Idealize.ShloMosaic.Lib.ValueIdx
import Idealize.ShloMosaic.PureOps.Ideal.Laws

noncomputable section

namespace Cert.Lib.RowDot

open Idealize.ShloMosaic Idealize.ShloMosaic.ValueIdx
open scoped BigOperators

variable {a c b : Nat}

/-- The dimension numbers of the product [a, c] × [b, c] → [a, b] that contracts the second axis of both. -/
abbrev dims (wf : DotDims.WF ⟨2, ![a, c]⟩ ⟨2, ![b, c]⟩ ⟨2, ![a, b]⟩ [1] [1] [0] [0] [] []) :
    DotDims ⟨2, ![a, c]⟩ ⟨2, ![b, c]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, c]⟩ ⟨2, ![b, c]⟩ ⟨2, ![a, b]⟩ [1] [1] [0] [0] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the result's column. -/
theorem rhs_row (i : (⟨2, ![a, b]⟩ : Shape).Idx) (k : (dims wf).contr.Idx) :
    ((dims wf).rhsIdx i k 0).val = (i 1).val := by
  unfold DotDims.rhsIdx
  rw [dif_neg (show ¬(0 : Fin 2) ∈ (dims wf).rhsBatch from List.not_mem_nil),
    dif_pos (show (0 : Fin 2) ∈ (dims wf).rhsNonContracting from List.mem_singleton.mpr rfl)]
  rfl

/-- The right operand's column is the contraction position. -/
theorem rhs_col (i : (⟨2, ![a, b]⟩ : Shape).Idx) (k : (dims wf).contr.Idx) :
    ((dims wf).rhsIdx i k 1).val = (k ⟨0, Nat.one_pos⟩).val :=
  (dims wf).rhsIdx_val_of_single rfl i k

/-- The product's sum at (p, q): over k, the left operand at (p, k) times the right operand at (q, k). -/
theorem sum_apply {M : Type*} [AddCommMonoid M] [Mul M] (lhs : (⟨2, ![a, c]⟩ : Shape).Idx → M)
    (rhs : (⟨2, ![b, c]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 q k) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 q k :=
    funext fun ax => Fin.ext (by
      match ax with
      | ⟨0, _⟩ => exact rhs_row wf _ _
      | ⟨1, _⟩ => exact (rhs_col wf _ _).trans hk)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![b, c]⟩ φ₂) (p : Fin a) (q : Fin b) :
    matmul (dims wf) prec lhs rhs (constant ⟨2, ![a, b]⟩ .f32 0x00000000#32) (ix2 p q)
      = ∑ k : Fin c, lhs (ix2 p k) * rhs (ix2 q k) :=
  (Ideal.matmul_constant_zero_apply (dims wf) prec lhs rhs (ix2 p q)).trans (sum_apply wf lhs rhs p q)

end Cert.Lib.RowDot

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.IdealSlab.lean ====
/-
  What the fused decoder's body leaves in its result buffer, at the exact values, is the specification's slab.

  The body's hidden block is the rectifier of the batch-normalised pre-activations: at (b, g) the pre-activation is row b
  of the latent block against weight row g plus the bias at g; the column's mean and biased variance are column sums
  over the f32 word of 128; the normalised value is scaled and shifted by the rows' entries at g. Tap k's slab is, at
  (b, ·, g), the logistic function of the rectifier of hidden(b, g) · filter(g, k) + filter-bias(g), and it is stored
  through row k of the middle axis of the [128, 20, 640] buffer, so the buffer at (b, k, g) is the specification's
  entry (b, k, g). The twenty slabs tile the buffer, and each agrees with the one function `Cert.Decoder.slab` of the
  buffer index, so the buffer is that function.
-/
import proofs.«143995_j20495583936811_2_alg».proof.Proof.IdealBody
import proofs.«143995_j20495583936811_2_alg».proof.Proof.Decoder
import proofs.«143995_j20495583936811_2_alg».proof.Proof.LibRowDot
import proofs.«143995_j20495583936811_2_alg».proof.Proof.LibRowBroadcasts
import Idealize.ShloMosaic.PureOps.Ideal.Laws
import Idealize.ShloMosaic.Lib.ValueIdx
import Idealize.ShloMosaic.Lib.Pipeline.Value

set_option maxRecDepth 16384

noncomputable section

namespace Cert.KernelIdeal.Slab

open Cert.KernelIdeal Cert.KernelIdeal.Gen Cert.KernelIdeal.Hand
open Idealize.ShloMosaic Idealize.ShloMosaic.ValueIdx
open scoped BigOperators

/-! ## Index facts -/

/-- A length-640 vector cast to a [1, 640] row reads, at (·, g), the vector at g. -/
theorem castRow_apply {α : Type} (v : S640.Idx → α) (h : S640.ShapeCasts S1x640) (u : Fin 1) (g : Fin 640) :
    shapeCast S1x640 v h (ix2 u g) = v (ix1 g) :=
  shapeCast_apply v h _ _ (by
    rw [Shape.rowMajor_val_two, Shape.rowMajor_val_one]
    show g.val = u.val * 640 + g.val
    have := u.isLt; omega)

/-- The sum down the 128 rows of a [128, 640] array, at column g. -/
theorem colSum_apply (v : FVec Ideal S128x640 .f32) (hacc : (0x00000000#32 : BitVec 32) = 0x00000000#32) (g : Fin 640) :
    multiReduction (F := Ideal) .add [0] S640 v 0x00000000#32 reduces_S128x640_S640 (.inl rfl) hacc (ix1 g)
      = ∑ b : Fin 128, v (ix2 b g) := by
  refine (Ideal.multiReduction_add_single v 0x00000000#32 reduces_S128x640_S640 (.inl rfl) hacc (ix1 g)).trans ?_
  refine Finset.sum_congr rfl fun k _ => congrArg v ?_
  funext c; apply Fin.ext
  fin_cases c <;> rfl

/-! ## Whole loads -/

theorem zeros2 : (![0, 0] : Fin 2 → Nat) = fun _ => 0 := funext fun a => by fin_cases a <;> rfl

/-- The hidden block is the first payload of the five buffers themselves. -/
theorem h39_eq (x0 : Vec Ideal S128x2000 .f32) (x1 : Vec Ideal S640x2000 .f32) (x2 x3 x4 : Vec Ideal S1x640 .f32) :
    h39 (F := Ideal) x0 x1 x2 x3 x4 = k0_pay3 x0 x1 x2 x3 x4 := by
  unfold h39
  rw [View.ld_unit_zero zeros2, View.ld_unit_zero zeros2, View.ld_unit_zero zeros2, View.ld_unit_zero zeros2,
    View.ld_unit_zero zeros2]

/-- The filter block as loaded is the filter block. -/
theorem cw_eq (x5 : Vec Ideal S640x20 .f32) : cw (F := Ideal) x5 = x5 := by
  unfold cw; rw [View.ld_unit_zero zeros2]

/-- The filter-bias row as loaded is the filter-bias row, -/
theorem ldRow_eq (x6 : Vec Ideal S1x640 .f32) : View.ld x6 rRow = x6 := View.ld_unit_zero zeros2 _ _

/-- and so is its cast to its own shape. -/
theorem cb_eq (x6 : Vec Ideal S1x640 .f32) : cb (F := Ideal) x6 = x6 := by
  unfold cb k0_pay4; rw [View.ld_unit_zero zeros2, shapeCast_self]

/-! ## The hidden block -/

/-- The leaky rectifier down a [128, 640] block. -/
def leakyV (q : FVec Ideal S128x640 .f32) : FVec Ideal S128x640 .f32 :=
  select (cmpf .oge q (broadcast S128x640 (Scalar.ofBits .f32 0x00000000#32))) q
    (mulf (broadcast S128x640 (Scalar.ofBits .f32 0x3DCCCCCD#32)) q)

theorem leakyV_apply (q : FVec Ideal S128x640 .f32) (i : S128x640.Idx) : leakyV q i = Cert.Decoder.leaky (q i) := rfl

/-- The pre-activation block: the latent block against the weight rows, plus the bias row down the rows. -/
def pre (x0 : Vec Ideal S128x2000 .f32) (x1 : Vec Ideal S640x2000 .f32) (x2 : Vec Ideal S1x640 .f32) : FVec Ideal S128x640 .f32 :=
  addf (matmul (F := Ideal) dot_S128x2000_S640x2000_S128x640_1_1_0_0_n_n none
      (truncf .bf16 x0 bitsLt_bf16_f32) (truncf .bf16 x1 bitsLt_bf16_f32) (constant S128x640 .f32 0x00000000#32))
    (broadcastTo S128x640 (shapeCast S1x640 x2 shapeCasts_S1x640_S1x640) broadcasts_S1x640_S128x640)

/-- At (b, g): row b of the latent block against weight row g, plus the bias at g. -/
theorem pre_apply (x0 : Vec Ideal S128x2000 .f32) (x1 : Vec Ideal S640x2000 .f32) (x2 : Vec Ideal S1x640 .f32)
    (b : Fin 128) (g : Fin 640) :
    pre x0 x1 x2 (ix2 b g) = Cert.Decoder.lin (Cert.Decoder.rows x0) (fun l => x1 (ix2 g l)) (x2 (ix2 0 g)) b := by
  have e : dot_S128x2000_S640x2000_S128x640_1_1_0_0_n_n
      = Cert.Lib.RowDot.dims dot_S128x2000_S640x2000_S128x640_1_1_0_0_n_n_wf := rfl
  show matmul (F := Ideal) dot_S128x2000_S640x2000_S128x640_1_1_0_0_n_n none
          (truncf .bf16 x0 bitsLt_bf16_f32) (truncf .bf16 x1 bitsLt_bf16_f32) (constant S128x640 .f32 0x00000000#32) (ix2 b g)
        + broadcastTo S128x640 (shapeCast S1x640 x2 shapeCasts_S1x640_S1x640) broadcasts_S1x640_S128x640 (ix2 b g) = _
  rw [shapeCast_self, Cert.Lib.Rows.bcastRow_apply, e, Cert.Lib.RowDot.matmul_zero_apply]
  rfl

/-- The row of column means of a block: the column sums over the word of 128. -/
def meanRow (p : FVec Ideal S128x640 .f32) : FVec Ideal S1x640 .f32 :=
  divf (shapeCast S1x640 (multiReduction (F := Ideal) .add [0] S640 p 0x00000000#32 reduces_S128x640_S640 (.inl rfl) rfl)
      shapeCasts_S640_S1x640)
    (broadcast S1x640 (Scalar.ofBits .f32 0x43000000#32))

theorem meanRow_apply (p : FVec Ideal S128x640 .f32) (u : Fin 1) (g : Fin 640) :
    meanRow p (ix2 u g) = Ideal.div (∑ b : Fin 128, p (ix2 b g)) (Ideal.ofBits .f32 0x43000000#32) := by
  show Ideal.div (shapeCast S1x640 (multiReduction (F := Ideal) .add [0] S640 p 0x00000000#32 reduces_S128x640_S640 (.inl rfl) rfl)
      shapeCasts_S640_S1x640 (ix2 u g)) (Ideal.ofBits .f32 0x43000000#32) = _
  rw [castRow_apply, colSum_apply]

/-- A block less its column means. -/
def centred (p : FVec Ideal S128x640 .f32) : FVec Ideal S128x640 .f32 :=
  subf p (broadcastTo S128x640 (meanRow p) broadcasts_S1x640_S128x640)

theorem centred_apply (p : FVec Ideal S128x640 .f32) (b : Fin 128) (g : Fin 640) :
    centred p (ix2 b g) = p (ix2 b g) - Ideal.div (∑ b' : Fin 128, p (ix2 b' g)) (Ideal.ofBits .f32 0x43000000#32) := by
  show p (ix2 b g) - broadcastTo S128x640 (meanRow p) broadcasts_S1x640_S128x640 (ix2 b g) = _
  rw [Cert.Lib.Rows.bcastRow_apply, meanRow_apply]

/-- A block normalised down its columns, scaled and shifted by rows. -/
def normed (p : FVec Ideal S128x640 .f32) (x3 x4 : Vec Ideal S1x640 .f32) : FVec Ideal S128x640 .f32 :=
  addf (mulf (mulf (centred p)
        (broadcastTo S128x640 (rsqrt (addf (meanRow (mulf (centred p) (centred p)))
          (broadcast S1x640 (Scalar.ofBits .f32 0x3727C5AC#32)))) broadcasts_S1x640_S128x640))
      (broadcastTo S128x640 (shapeCast S1x640 x3 shapeCasts_S1x640_S1x640) broadcasts_S1x640_S128x640))
    (broadcastTo S128x640 (shapeCast S1x640 x4 shapeCasts_S1x640_S1x640) broadcasts_S1x640_S128x640)

theorem normed_apply (p : FVec Ideal S128x640 .f32) (x3 x4 : Vec Ideal S1x640 .f32) (b : Fin 128) (g : Fin 640) :
    normed p x3 x4 (ix2 b g)
      = (p (ix2 b g) - Ideal.div (∑ b' : Fin 128, p (ix2 b' g)) (Ideal.ofBits .f32 0x43000000#32))
          * Ideal.rsqrt (Ideal.div (∑ c : Fin 128,
                (p (ix2 c g) - Ideal.div (∑ b' : Fin 128, p (ix2 b' g)) (Ideal.ofBits .f32 0x43000000#32))
                  * (p (ix2 c g) - Ideal.div (∑ b' : Fin 128, p (ix2 b' g)) (Ideal.ofBits .f32 0x43000000#32)))
              (Ideal.ofBits .f32 0x43000000#32) + Ideal.ofBits .f32 0x3727C5AC#32)
          * x3 (ix2 0 g) + x4 (ix2 0 g) := by
  show centred p (ix2 b g)
        * broadcastTo S128x640 (rsqrt (addf (meanRow (mulf (centred p) (centred p)))
            (broadcast S1x640 (Scalar.ofBits .f32 0x3727C5AC#32)))) broadcasts_S1x640_S128x640 (ix2 b g)
        * broadcastTo S128x640 (shapeCast S1x640 x3 shapeCasts_S1x640_S1x640) broadcasts_S1x640_S128x640 (ix2 b g)
      + broadcastTo S128x640 (shapeCast S1x640 x4 shapeCasts_S1x640_S1x640) broadcasts_S1x640_S128x640 (ix2 b g) = _
  rw [Cert.Lib.Rows.bcastRow_apply, Cert.Lib.Rows.bcastRow_apply, Cert.Lib.Rows.bcastRow_apply, shapeCast_self, shapeCast_self,
    centred_apply]
  show _ * Ideal.rsqrt (meanRow (mulf (centred p) (centred p)) (ix2 0 g) + Ideal.ofBits .f32 0x3727C5AC#32) * _ + _ = _
  rw [meanRow_apply]
  have e : ∀ c : Fin 128, mulf (centred p) (centred p) (ix2 c g)
      = (p (ix2 c g) - Ideal.div (∑ b' : Fin 128, p (ix2 b' g)) (Ideal.ofBits .f32 0x43000000#32))
          * (p (ix2 c g) - Ideal.div (∑ b' : Fin 128, p (ix2 b' g)) (Ideal.ofBits .f32 0x43000000#32)) := fun c => by
    show centred p (ix2 c g) * centred p (ix2 c g) = _
    rw [centred_apply]
  simp only [e]

/-- The first payload is the rectifier of the normalised pre-activation block. -/
theorem k0_pay3_eq (x0 : Vec Ideal S128x2000 .f32) (x1 : Vec Ideal S640x2000 .f32) (x2 x3 x4 : Vec Ideal S1x640 .f32) :
    k0_pay3 (F := Ideal) x0 x1 x2 x3 x4 = leakyV (normed (pre x0 x1 x2) x3 x4) := rfl

/-- THE COLUMN LEMMA: the hidden block at (b, g) is the specification's hidden value of batch row b in column g. -/
theorem h39_apply (x0 : Vec Ideal S128x2000 .f32) (x1 : Vec Ideal S640x2000 .f32) (x2 x3 x4 : Vec Ideal S1x640 .f32)
    (b : Fin 128) (g : Fin 640) :
    h39 (F := Ideal) x0 x1 x2 x3 x4 (ix2 b g)
      = Cert.Decoder.hidden (Cert.Decoder.rows x0) (fun l => x1 (ix2 g l)) (x2 (ix2 0 g)) (x3 (ix2 0 g)) (x4 (ix2 0 g)) b := by
  rw [h39_eq, k0_pay3_eq, leakyV_apply, normed_apply]
  simp only [pre_apply]
  rfl

/-! ## The taps -/

/-- Column k of the filter block, as a row, down the rows. -/
def colV (k : Nat) (hs : S640x20.Slices ![0, k] S640x1) (v : Vec Ideal S640x20 .f32) : FVec Ideal S128x640 .f32 :=
  broadcastTo S128x640 (shapeCast S1x640 (shapeCast S640 (extractStridedSlice S640x1 ![0, k] v hs) shapeCasts_S640x1_S640)
    shapeCasts_S640_S1x640) broadcasts_S1x640_S128x640

/-- At (b, g) it is the filter block at (g, k). -/
theorem colV_apply (k : Nat) (hk : k < 20) (hs : S640x20.Slices ![0, k] S640x1) (v : Vec Ideal S640x20 .f32)
    (b : Fin 128) (g : Fin 640) : colV k hs v (ix2 b g) = v (ix2 g ⟨k, hk⟩) := by
  unfold colV
  rw [Cert.Lib.Rows.bcastRow_apply, castRow_apply]
  refine (shapeCast_apply _ _ (ix1 g) (ix2 g (0 : Fin 1)) ?_).trans ?_
  · rw [Shape.rowMajor_val_two, Shape.rowMajor_val_one]
    show g.val * 1 + 0 = g.val
    omega
  · refine extractStridedSlice_apply _ v hs _ _ fun a => ?_
    match a with
    | ⟨0, _⟩ => show g.val = 0 + g.val; omega
    | ⟨1, _⟩ => show k = k + 0; omega

/-- One tap's slab: the hidden block times a filter column plus the filter-bias row, through the rectifier and the
    logistic function, with a unit middle axis. -/
def tapV (h col : FVec Ideal S128x640 .f32) (cbrow : FVec Ideal S1x640 .f32) : FVec Ideal S128x1x640 .f32 :=
  shapeCast S128x1x640 (logistic (leakyV (addf (mulf h col) (broadcastTo S128x640 cbrow broadcasts_S1x640_S128x640))))
    shapeCasts_S128x640_S128x1x640

theorem tapV_apply (h col : FVec Ideal S128x640 .f32) (cbrow : FVec Ideal S1x640 .f32) (b : Fin 128) (u : Fin 1) (g : Fin 640) :
    tapV h col cbrow (ix3 b u g) = Cert.Decoder.tap (h (ix2 b g)) (col (ix2 b g)) (cbrow (ix2 0 g)) := by
  refine (shapeCast_apply _ _ (ix3 b u g) (ix2 b g) ?_).trans ?_
  · rw [Shape.rowMajor_val_two, Shape.rowMajor_val_three]
    show b.val * 640 + g.val = (b.val * 1 + u.val) * 640 + g.val
    have := u.isLt; omega
  · show Ideal.logistic (Cert.Decoder.leaky (h (ix2 b g) * col (ix2 b g)
        + broadcastTo S128x640 cbrow broadcasts_S1x640_S128x640 (ix2 b g))) = _
    rw [Cert.Lib.Rows.bcastRow_apply]
    rfl

/-- A row cast to its own shape is the row. -/
theorem pay4_eq (w : Vec Ideal S1x640 .f32) : k0_pay4 (F := Ideal) w = w := shapeCast_self _ _

/-! Each of the twenty payloads is that tap function of the hidden block, the filter block and the filter-bias row. -/

theorem tap19_eq (h : FVec Ideal S128x640 .f32) (v : Vec Ideal S640x20 .f32) (w : FVec Ideal S1x640 .f32) :
    k0_pay2 (F := Ideal) h v w = tapV h (colV 19 slices_S640x20_o0_19_S640x1 v) w := rfl
theorem tap18_eq (h : FVec Ideal S128x640 .f32) (v : Vec Ideal S640x20 .f32) (w : FVec Ideal S1x640 .f32) :
    k0_pay1 (F := Ideal) (k0_pay30 h v w) = tapV h (colV 18 slices_S640x20_o0_18_S640x1 v) w := rfl
theorem tap17_eq (h : FVec Ideal S128x640 .f32) (v : Vec Ideal S640x20 .f32) (w : FVec Ideal S1x640 .f32) :
    k0_pay29 (F := Ideal) h v w = tapV h (colV 17 slices_S640x20_o0_17_S640x1 v) w := rfl
theorem tap16_eq (h : FVec Ideal S128x640 .f32) (v : Vec Ideal S640x20 .f32) (w : FVec Ideal S1x640 .f32) :
    k0_pay28 (F := Ideal) h w (k0_pay27 v) = tapV h (colV 16 slices_S640x20_o0_16_S640x1 v) w := rfl
theorem tap15_eq (h : FVec Ideal S128x640 .f32) (v : Vec Ideal S640x20 .f32) (w : FVec Ideal S1x640 .f32) :
    k0_pay26 (F := Ideal) h v w = tapV h (colV 15 slices_S640x20_o0_15_S640x1 v) w := rfl
theorem tap14_eq (h : FVec Ideal S128x640 .f32) (v : Vec Ideal S640x20 .f32) (w : FVec Ideal S1x640 .f32) :
    k0_pay25 (F := Ideal) h v w = tapV h (colV 14 slices_S640x20_o0_14_S640x1 v) w := rfl
theorem tap13_eq (h : FVec Ideal S128x640 .f32) (v : Vec Ideal S640x20 .f32) (w : FVec Ideal S1x640 .f32) :
    k0_pay24 (F := Ideal) (k0_pay23 h v w) (Scalar.ofBits .f32 0x00000000#32) = tapV h (colV 13 slices_S640x20_o0_13_S640x1 v) w := rfl
theorem tap12_eq (h : FVec Ideal S128x640 .f32) (v : Vec Ideal S640x20 .f32) (w : FVec Ideal S1x640 .f32) :
    k0_pay22 (F := Ideal) h v w = tapV h (colV 12 slices_S640x20_o0_12_S640x1 v) w := rfl
theorem tap11_eq (h : FVec Ideal S128x640 .f32) (v : Vec Ideal S640x20 .f32) (w : FVec Ideal S1x640 .f32) :
    k0_pay21 (F := Ideal) h v w = tapV h (colV 11 slices_S640x20_o0_11_S640x1 v) w := rfl
theorem tap10_eq (h : FVec Ideal S128x640 .f32) (v : Vec Ideal S640x20 .f32) (w : FVec Ideal S1x640 .f32) :
    k0_pay20 (F := Ideal) (k0_pay19 h v w) = tapV h (colV 10 slices_S640x20_o0_10_S640x1 v) w := rfl
theorem tap9_eq (h : FVec Ideal S128x640 .f32) (v : Vec Ideal S640x20 .f32) (w : FVec Ideal S1x640 .f32) :
    k0_pay18 (F := Ideal) h v w = tapV h (colV 9 slices_S640x20_o0_9_S640x1 v) w := rfl
theorem tap8_eq (h : FVec Ideal S128x640 .f32) (v : Vec Ideal S640x20 .f32) (w : FVec Ideal S1x640 .f32) :
    k0_pay17 (F := Ideal) h v w = tapV h (colV 8 slices_S640x20_o0_8_S640x1 v) w := rfl
theorem tap7_eq (h : FVec Ideal S128x640 .f32) (v : Vec Ideal S640x20 .f32) (w : FVec Ideal S1x640 .f32) :
    k0_pay16 (F := Ideal) (k0_pay15 h v w) = tapV h (colV 7 slices_S640x20_o0_7_S640x1 v) w := rfl
theorem tap6_eq (h : FVec Ideal S128x640 .f32) (v : Vec Ideal S640x20 .f32) (w : FVec Ideal S1x640 .f32) :
    k0_pay14 (F := Ideal) h v w = tapV h (colV 6 slices_S640x20_o0_6_S640x1 v) w := rfl
theorem tap5_eq (h : FVec Ideal S128x640 .f32) (v : Vec Ideal S640x20 .f32) (w : FVec Ideal S1x640 .f32) :
    k0_pay13 (F := Ideal) h w (k0_pay12 v) = tapV h (colV 5 slices_S640x20_o0_5_S640x1 v) w := rfl
theorem tap4_eq (h : FVec Ideal S128x640 .f32) (v : Vec Ideal S640x20 .f32) (w : FVec Ideal S1x640 .f32) :
    k0_pay11 (F := Ideal) h v w = tapV h (colV 4 slices_S640x20_o0_4_S640x1 v) w := rfl
theorem tap3_eq (h : FVec Ideal S128x640 .f32) (v : Vec Ideal S640x20 .f32) (w : FVec Ideal S1x640 .f32) :
    k0_pay10 (F := Ideal) h v w = tapV h (colV 3 slices_S640x20_o0_3_S640x1 v) w := rfl
theorem tap2_eq (h : FVec Ideal S128x640 .f32) (v : Vec Ideal S640x20 .f32) (w : Vec Ideal S1x640 .f32) :
    k0_pay9 (F := Ideal) (k0_pay7 h v w) (k0_pay8 h v w) = tapV h (colV 2 slices_S640x20_o0_2_S640x1 v) (k0_pay4 w) := rfl
theorem tap1_eq (h : FVec Ideal S128x640 .f32) (v : Vec Ideal S640x20 .f32) (w : Vec Ideal S1x640 .f32) :
    k0_pay6 (F := Ideal) h v w = tapV h (colV 1 slices_S640x20_o0_1_S640x1 v) (k0_pay4 w) := rfl
theorem tap0_eq (h : FVec Ideal S128x640 .f32) (v : Vec Ideal S640x20 .f32) (w : Vec Ideal S1x640 .f32) :
    k0_pay5 (F := Ideal) h v w = tapV h (colV 0 slices_S640x20_o0_0_S640x1 v) (k0_pay4 w) := rfl

/-! ## The slabs in the buffer -/

/-- The slab index (b, ·, g) placed through row k of the middle axis is (b, k, g). -/
theorem emb_slab (k : Nat) (hk : k < 20)
    (inb : ∀ a, (![0, k, 0] : Fin 3 → Nat) a + S128x1x640.size a ≤ S128x20x640.size a) (b : Fin 128) (u : Fin 1) (g : Fin 640) :
    (Rect.unit (s := S128x20x640) ![0, k, 0] S128x1x640.size inb).emb (ix3 b u g) = ix3 b ⟨k, hk⟩ g := by
  funext a; apply Fin.ext
  rw [Rect.emb_apply]
  match a with
  | ⟨0, _⟩ => show 0 + 1 * b.val = b.val; omega
  | ⟨1, _⟩ => show k + 1 * u.val = k; have := u.isLt; omega
  | ⟨2, _⟩ => show 0 + 1 * g.val = g.val; omega

/-- A tap's slab, stored through row k of the middle axis, is the specification there. -/
theorem piece_ok (x0 : Vec Ideal S128x2000 .f32) (x1 : Vec Ideal S640x2000 .f32) (x2 x3 x4 : Vec Ideal S1x640 .f32)
    (x5 : Vec Ideal S640x20 .f32) (x6 : Vec Ideal S1x640 .f32) (k : Nat) (hk : k < 20)
    (hs : S640x20.Slices ![0, k] S640x1)
    (inb : ∀ a, (![0, k, 0] : Fin 3 → Nat) a + S128x1x640.size a ≤ S128x20x640.size a)
    (w : Vec Ideal S128x1x640 .f32) (hw : w = tapV (h39 (F := Ideal) x0 x1 x2 x3 x4) (colV k hs x5) x6)
    (x : (Rect.unit (s := S128x20x640) ![0, k, 0] S128x1x640.size inb).shape.Idx) :
    w x = Cert.Decoder.slab (N := 640) x0 x1 x2 x3 x4 x5 x6
      ((Rect.unit (s := S128x20x640) ![0, k, 0] S128x1x640.size inb).emb x) := by
  subst hw
  obtain ⟨b, u, g, rfl⟩ : ∃ (b : Fin 128) (u : Fin 1) (g : Fin 640), x = ix3 b u g := ⟨x 0, x 1, x 2, eq_ix3 x⟩
  rw [emb_slab k hk inb b u g, tapV_apply, colV_apply k hk, h39_apply]
  rfl

/-- WHAT THE BODY LEAVES: the result buffer, index by index, is the specification's slab of the seven buffers. -/
theorem out7_eq_slab (x0 : Vec Ideal S128x2000 .f32) (x1 : Vec Ideal S640x2000 .f32) (x2 x3 x4 : Vec Ideal S1x640 .f32)
    (x5 : Vec Ideal S640x20 .f32) (x6 : Vec Ideal S1x640 .f32) :
    out7 (F := Ideal) x0 x1 x2 x3 x4 x5 x6 = Cert.Decoder.slab (N := 640) x0 x1 x2 x3 x4 x5 x6 := by
  funext y
  unfold out7
  refine View.canon_apply_of_pieces (Cert.Decoder.slab (N := 640) x0 x1 x2 x3 x4 x5 x6) _ ?_ y
    (cover7 x0 x1 x2 x3 x4 x5 x6 y)
  intro p hp
  unfold pieces7 at hp
  simp only [List.mem_cons, List.not_mem_nil, or_false] at hp
  rcases hp with rfl | rfl | rfl | rfl | rfl | rfl | rfl | rfl | rfl | rfl | rfl | rfl | rfl | rfl | rfl | rfl | rfl | rfl | rfl | rfl
  · exact piece_ok x0 x1 x2 x3 x4 x5 x6 19 (by omega) slices_S640x20_o0_19_S640x1
      inb_S128x20x640_S128x1x640_0_19_0 _ (by rw [cw_eq, cb_eq]; exact tap19_eq _ _ _)
  · exact piece_ok x0 x1 x2 x3 x4 x5 x6 18 (by omega) slices_S640x20_o0_18_S640x1
      inb_S128x20x640_S128x1x640_0_18_0 _ (by rw [cw_eq, cb_eq]; exact tap18_eq _ _ _)
  · exact piece_ok x0 x1 x2 x3 x4 x5 x6 17 (by omega) slices_S640x20_o0_17_S640x1
      inb_S128x20x640_S128x1x640_0_17_0 _ (by rw [cw_eq, cb_eq]; exact tap17_eq _ _ _)
  · exact piece_ok x0 x1 x2 x3 x4 x5 x6 16 (by omega) slices_S640x20_o0_16_S640x1
      inb_S128x20x640_S128x1x640_0_16_0 _ (by rw [cw_eq, cb_eq]; exact tap16_eq _ _ _)
  · exact piece_ok x0 x1 x2 x3 x4 x5 x6 15 (by omega) slices_S640x20_o0_15_S640x1
      inb_S128x20x640_S128x1x640_0_15_0 _ (by rw [cw_eq, cb_eq]; exact tap15_eq _ _ _)
  · exact piece_ok x0 x1 x2 x3 x4 x5 x6 14 (by omega) slices_S640x20_o0_14_S640x1
      inb_S128x20x640_S128x1x640_0_14_0 _ (by rw [cw_eq, cb_eq]; exact tap14_eq _ _ _)
  · exact piece_ok x0 x1 x2 x3 x4 x5 x6 13 (by omega) slices_S640x20_o0_13_S640x1
      inb_S128x20x640_S128x1x640_0_13_0 _ (by rw [cw_eq, cb_eq]; exact tap13_eq _ _ _)
  · exact piece_ok x0 x1 x2 x3 x4 x5 x6 12 (by omega) slices_S640x20_o0_12_S640x1
      inb_S128x20x640_S128x1x640_0_12_0 _ (by rw [cw_eq, cb_eq]; exact tap12_eq _ _ _)
  · exact piece_ok x0 x1 x2 x3 x4 x5 x6 11 (by omega) slices_S640x20_o0_11_S640x1
      inb_S128x20x640_S128x1x640_0_11_0 _ (by rw [cw_eq, cb_eq]; exact tap11_eq _ _ _)
  · exact piece_ok x0 x1 x2 x3 x4 x5 x6 10 (by omega) slices_S640x20_o0_10_S640x1
      inb_S128x20x640_S128x1x640_0_10_0 _ (by rw [cw_eq, cb_eq]; exact tap10_eq _ _ _)
  · exact piece_ok x0 x1 x2 x3 x4 x5 x6 9 (by omega) slices_S640x20_o0_9_S640x1
      inb_S128x20x640_S128x1x640_0_9_0 _ (by rw [cw_eq, cb_eq]; exact tap9_eq _ _ _)
  · exact piece_ok x0 x1 x2 x3 x4 x5 x6 8 (by omega) slices_S640x20_o0_8_S640x1
      inb_S128x20x640_S128x1x640_0_8_0 _ (by rw [cw_eq, cb_eq]; exact tap8_eq _ _ _)
  · exact piece_ok x0 x1 x2 x3 x4 x5 x6 7 (by omega) slices_S640x20_o0_7_S640x1
      inb_S128x20x640_S128x1x640_0_7_0 _ (by rw [cw_eq, cb_eq]; exact tap7_eq _ _ _)
  · exact piece_ok x0 x1 x2 x3 x4 x5 x6 6 (by omega) slices_S640x20_o0_6_S640x1
      inb_S128x20x640_S128x1x640_0_6_0 _ (by rw [cw_eq, cb_eq]; exact tap6_eq _ _ _)
  · exact piece_ok x0 x1 x2 x3 x4 x5 x6 5 (by omega) slices_S640x20_o0_5_S640x1
      inb_S128x20x640_S128x1x640_0_5_0 _ (by rw [cw_eq, cb_eq]; exact tap5_eq _ _ _)
  · exact piece_ok x0 x1 x2 x3 x4 x5 x6 4 (by omega) slices_S640x20_o0_4_S640x1
      inb_S128x20x640_S128x1x640_0_4_0 _ (by rw [cw_eq, cb_eq]; exact tap4_eq _ _ _)
  · exact piece_ok x0 x1 x2 x3 x4 x5 x6 3 (by omega) slices_S640x20_o0_3_S640x1
      inb_S128x20x640_S128x1x640_0_3_0 _ (by rw [cw_eq, cb_eq]; exact tap3_eq _ _ _)
  · exact piece_ok x0 x1 x2 x3 x4 x5 x6 2 (by omega) slices_S640x20_o0_2_S640x1
      inb_S128x20x640_S128x1x640_0_2_0 _ (by rw [cw_eq, ldRow_eq]; exact (tap2_eq _ _ _).trans (by rw [pay4_eq]))
  · exact piece_ok x0 x1 x2 x3 x4 x5 x6 1 (by omega) slices_S640x20_o0_1_S640x1
      inb_S128x20x640_S128x1x640_0_1_0 _ (by rw [cw_eq, ldRow_eq]; exact (tap1_eq _ _ _).trans (by rw [pay4_eq]))
  · exact piece_ok x0 x1 x2 x3 x4 x5 x6 0 (by omega) slices_S640x20_o0_0_S640x1
      inb_S128x20x640_S128x1x640_0_0_0 _ (by rw [cw_eq, ldRow_eq]; exact (tap0_eq _ _ _).trans (by rw [pay4_eq]))

end Cert.KernelIdeal.Slab

end
-- ==== Proof.IdealFrame.lean ====
/-
  The idealized kernel's run: it terminates, faults nowhere, leaves its argument arrays unchanged, and its region's
  result array ends holding ONE function of the arrays the region finds — entry (b, k, g) the tap k of column g of
  batch row b. The blocks overhang the arrays at the last grid point; the proof data name each clipped input buffer
  and the result buffer on the part their transfers move (the array's block, the block of that one function) and
  fill the rest with a word nothing reads. The write-backs' blocks cover the result array: column g is written at
  point g / 640.
-/
import proofs.«143995_j20495583936811_2_alg».proof.Proof.IdealBlocks
import proofs.«143995_j20495583936811_2_alg».proof.Proof.IdealSlab
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-! ## The proof data -/

def blk1 (c : Dev nD) (t : Fin cfg0.N) : S640x2000.Idx → Elt Ideal .f32 :=
  win0_1.fill (grid0.coords t) (fun _ => Scalar.ofBits (F := Ideal) .f32 0#32) (iblk m c 1 t)
def blk2 (c : Dev nD) (t : Fin cfg0.N) : S1x640.Idx → Elt Ideal .f32 :=
  win0_2.fill (grid0.coords t) (fun _ => Scalar.ofBits (F := Ideal) .f32 0#32) (iblk m c 2 t)
def blk3 (c : Dev nD) (t : Fin cfg0.N) : S1x640.Idx → Elt Ideal .f32 :=
  win0_3.fill (grid0.coords t) (fun _ => Scalar.ofBits (F := Ideal) .f32 0#32) (iblk m c 3 t)
def blk4 (c : Dev nD) (t : Fin cfg0.N) : S1x640.Idx → Elt Ideal .f32 :=
  win0_4.fill (grid0.coords t) (fun _ => Scalar.ofBits (F := Ideal) .f32 0#32) (iblk m c 4 t)
def blk5 (c : Dev nD) (t : Fin cfg0.N) : S640x20.Idx → Elt Ideal .f32 :=
  win0_5.fill (grid0.coords t) (fun _ => Scalar.ofBits (F := Ideal) .f32 0#32) (iblk m c 5 t)
def blk6 (c : Dev nD) (t : Fin cfg0.N) : S1x640.Idx → Elt Ideal .f32 :=
  win0_6.fill (grid0.coords t) (fun _ => Scalar.ofBits (F := Ideal) .f32 0#32) (iblk m c 6 t)
/-- The result buffer after the body: block t of `regionResult` on the moved part. -/
def blk7 (c : Dev nD) (t : Fin cfg0.N) : S128x20x640.Idx → Elt Ideal .f32 :=
  win0_7.fill (grid0.coords t) (fun _ => Scalar.ofBits (F := Ideal) .f32 0#32) ((win0_7.blk t).view.read (Elt Ideal) (regionResult m c))

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => blk1 m c t
    | ⟨2, _⟩ => blk2 m c t
    | ⟨3, _⟩ => blk3 m c t
    | ⟨4, _⟩ => blk4 m c t
    | ⟨5, _⟩ => blk5 m c t
    | ⟨6, _⟩ => blk6 m c t
    | ⟨7, _⟩ => blk7 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = blk1 m c t := by dsimp only [dats]
theorem after0_2 (c : Dev nD) (t : Fin cfg0.N) : (dats m 0 c).after 2 t = blk2 m c t := by dsimp only [dats]
theorem after0_3 (c : Dev nD) (t : Fin cfg0.N) : (dats m 0 c).after 3 t = blk3 m c t := by dsimp only [dats]
theorem after0_4 (c : Dev nD) (t : Fin cfg0.N) : (dats m 0 c).after 4 t = blk4 m c t := by dsimp only [dats]
theorem after0_5 (c : Dev nD) (t : Fin cfg0.N) : (dats m 0 c).after 5 t = blk5 m c t := by dsimp only [dats]
theorem after0_6 (c : Dev nD) (t : Fin cfg0.N) : (dats m 0 c).after 6 t = blk6 m c t := by dsimp only [dats]
theorem after0_7 (c : Dev nD) (t : Fin cfg0.N) : (dats m 0 c).after 7 t = blk7 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) :
    (dats m 0 c).before 1 t d = win0_1.fill (grid0.coords t) d (iblk m c 1 t) := by
  unfold Dat.before; rw [if_pos (fetch0_1 t)]; rfl
theorem before0_2 (c : Dev nD) (t : Fin cfg0.N) (d) :
    (dats m 0 c).before 2 t d = win0_2.fill (grid0.coords t) d (iblk m c 2 t) := by
  unfold Dat.before; rw [if_pos (fetch0_2 t)]; rfl
theorem before0_3 (c : Dev nD) (t : Fin cfg0.N) (d) :
    (dats m 0 c).before 3 t d = win0_3.fill (grid0.coords t) d (iblk m c 3 t) := by
  unfold Dat.before; rw [if_pos (fetch0_3 t)]; rfl
theorem before0_4 (c : Dev nD) (t : Fin cfg0.N) (d) :
    (dats m 0 c).before 4 t d = win0_4.fill (grid0.coords t) d (iblk m c 4 t) := by
  unfold Dat.before; rw [if_pos (fetch0_4 t)]; rfl
theorem before0_5 (c : Dev nD) (t : Fin cfg0.N) (d) :
    (dats m 0 c).before 5 t d = win0_5.fill (grid0.coords t) d (iblk m c 5 t) := by
  unfold Dat.before; rw [if_pos (fetch0_5 t)]; rfl
theorem before0_6 (c : Dev nD) (t : Fin cfg0.N) (d) :
    (dats m 0 c).before 6 t d = win0_6.fill (grid0.coords t) d (iblk m c 6 t) := by
  unfold Dat.before; rw [if_pos (fetch0_6 t)]; rfl

/-- What the body computes into the moved part of the result buffer from the buffers it is handed. -/
theorem cut_out7 (c : Dev nD) (t : Fin cfg0.N) (d1 : S640x2000.Idx → Elt Ideal .f32) (d2 d3 d4 : S1x640.Idx → Elt Ideal .f32)
    (d5 : S640x20.Idx → Elt Ideal .f32) (d6 : S1x640.Idx → Elt Ideal .f32) :
    win0_7.cut (grid0.coords t)
        (out7 (F := Ideal) (iblk m c 0 t) (win0_1.fill (grid0.coords t) d1 (iblk m c 1 t))
          (win0_2.fill (grid0.coords t) d2 (iblk m c 2 t)) (win0_3.fill (grid0.coords t) d3 (iblk m c 3 t))
          (win0_4.fill (grid0.coords t) d4 (iblk m c 4 t)) (win0_5.fill (grid0.coords t) d5 (iblk m c 5 t))
          (win0_6.fill (grid0.coords t) d6 (iblk m c 6 t)))
      = (win0_7.blk t).view.read (Elt Ideal) (regionResult m c) := by
  rw [Cert.KernelIdeal.Slab.out7_eq_slab]
  exact cut_slab m c t d1 d2 d3 d4 d5 d6

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t))))
    ∗ (∃ d, owns (c : Thread nD τ) (st0_4 t) fullShare (win0_4.fill (grid0.coords t) d (win0_4.cut (grid0.coords t) ((dats m 0 c).after 4 t))))
    ∗ (∃ d, owns (c : Thread nD τ) (st0_5 t) fullShare (win0_5.fill (grid0.coords t) d (win0_5.cut (grid0.coords t) ((dats m 0 c).after 5 t))))
    ∗ (∃ d, owns (c : Thread nD τ) (st0_6 t) fullShare (win0_6.fill (grid0.coords t) d (win0_6.cut (grid0.coords t) ((dats m 0 c).after 6 t))))
    ∗ (∃ d, owns (c : Thread nD τ) (st0_7 t) fullShare (win0_7.fill (grid0.coords t) d (win0_7.cut (grid0.coords t) ((dats m 0 c).after 7 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before0_0 m c t d0, before0_1 m c t d1, before0_2 m c t d2, before0_3 m c t d3, before0_4 m c t d4,
    before0_5 m c t d5, before0_6 m c t d6]
  iapply (sound_kernel (F := Ideal) c Set.univ (grid0.coords t) _ _ _ _ _ _ _ _ _ _ _ _ _ _ _ _ (iblk m c 0 t)
    (win0_1.fill (grid0.coords t) d1 (iblk m c 1 t)) (win0_2.fill (grid0.coords t) d2 (iblk m c 2 t))
    (win0_3.fill (grid0.coords t) d3 (iblk m c 3 t)) (win0_4.fill (grid0.coords t) d4 (iblk m c 4 t))
    (win0_5.fill (grid0.coords t) d5 (iblk m c 5 t)) (win0_6.fill (grid0.coords t) d6 (iblk m c 6 t)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]
  · iexists d1
    rw [show win0_1.cut (grid0.coords t) (blk1 m c t) = iblk m c 1 t from win0_1.cut_fill _ _ _]
    iexact H1
  isplitl [H2]
  · iexists d2
    rw [show win0_2.cut (grid0.coords t) (blk2 m c t) = iblk m c 2 t from win0_2.cut_fill _ _ _]
    iexact H2
  isplitl [H3]
  · iexists d3
    rw [show win0_3.cut (grid0.coords t) (blk3 m c t) = iblk m c 3 t from win0_3.cut_fill _ _ _]
    iexact H3
  isplitl [H4]
  · iexists d4
    rw [show win0_4.cut (grid0.coords t) (blk4 m c t) = iblk m c 4 t from win0_4.cut_fill _ _ _]
    iexact H4
  isplitl [H5]
  · iexists d5
    rw [show win0_5.cut (grid0.coords t) (blk5 m c t) = iblk m c 5 t from win0_5.cut_fill _ _ _]
    iexact H5
  isplitl [H6]
  · iexists d6
    rw [show win0_6.cut (grid0.coords t) (blk6 m c t) = iblk m c 6 t from win0_6.cut_fill _ _ _]
    iexact H6
  iexists _
  rw [show win0_7.cut (grid0.coords t) (blk7 m c t) = (win0_7.blk t).view.read (Elt Ideal) (regionResult m c) from win0_7.cut_fill _ _ _,
    ← cut_out7 m c t d1 d2 d3 d4 d5 d6, win0_7.fill_cut]
  iexact H7

theorem body_obligation (c : Dev nD) :
    BodyObligationLoose (dats m 0 c) (defs₀ (F := Ideal)) Variants.none () Set.univ := fun t => by
  rw [bigSep_W0, bigSep_W0]
  exact sound_body m c t

/-! ## The run and the frame -/

set_option backward.isDefEq.respectTransparency.types false in
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-! ## The region's result array -/

/-- What point t writes back is block t of `regionResult`. -/
theorem flushed7 (c : Dev nD) (t : Fin cfg0.N) :
    (dats m 0 c).flushed 7 t = ((cfg0.win 7).blk t).view.read (Elt Ideal) (regionResult m c) := by
  show (cfg0.win 7).cut (grid0.coords t) ((dats m 0 c).after 7 t) = _
  rw [after0_7]
  exact win0_7.cut_fill _ _ _

/-- An index of the result array is in point t's block iff each coordinate is in the block's range cut at the
    array's end. -/
theorem mem_blk7 (t : Fin cfg0.N) (i : S128x20x10000.Idx) :
    i ∈ ((cfg0.win 7).blk t).view.set ↔ ∀ a : Fin 3, win0_7.index t a * S128x20x640.size a ≤ (i a).val
      ∧ (i a).val < win0_7.index t a * S128x20x640.size a + win0_7.xsize (grid0.coords t) a := by
  show i ∈ ((View.whole main_v4).slice (win0_7.rect t)).set ↔ _
  rw [View.set_slice_whole, Rect.mem_set_unit]
  exact Iff.rfl

/-- Every index of the result array is in the block of the point its column belongs to. -/
theorem cover7arr (i : S128x20x10000.Idx) :
    ∃ t : Fin cfg0.N, (cfg0.win 7).flush t = true ∧ i ∈ ((cfg0.win 7).blk t).view.set := by
  have h0 : (i 0).val < 128 := (i 0).isLt
  have h1 : (i 1).val < 20 := (i 1).isLt
  have h2 : (i 2).val < 10000 := (i 2).isLt
  have hN : cfg0.N = 16 := N_0
  let t : Fin cfg0.N := ⟨(i 2).val / 640, by rw [hN]; omega⟩
  have htv : t.val = (i 2).val / 640 := rfl
  refine ⟨t, flush0_7 t, ?_⟩
  rw [mem_blk7]
  obtain ⟨i00, i01, i10, i11, x10, x11, i20, i21, x20, x21, i30, i31, x30, x31, i40, i41, x40, x41, i60, i61, x60, x61, i50, i51, x50, x51, i70, i71, i72, x70, x71, x72⟩ := geom t
  intro a
  match a with
  | ⟨0, _⟩ =>
    show win0_7.index t (0 : Fin 3) * 128 ≤ (i 0).val ∧ (i 0).val < win0_7.index t (0 : Fin 3) * 128 + win0_7.xsize (grid0.coords t) (0 : Fin 3)
    rw [i70, x70]; omega
  | ⟨1, _⟩ =>
    show win0_7.index t (1 : Fin 3) * 20 ≤ (i 1).val ∧ (i 1).val < win0_7.index t (1 : Fin 3) * 20 + win0_7.xsize (grid0.coords t) (1 : Fin 3)
    rw [i71, x71]; omega
  | ⟨2, _⟩ =>
    show win0_7.index t (2 : Fin 3) * 640 ≤ (i 2).val ∧ (i 2).val < win0_7.index t (2 : Fin 3) * 640 + win0_7.xsize (grid0.coords t) (2 : Fin 3)
    rw [i72, x72, htv, Nat.min_def]
    split <;> omega

/-- THE RESULT ARRAY of the region after the run. -/
theorem final7 (c : Dev nD) : (dats m 0 c).arrAt 7 cfg0.N = regionResult m c :=
  (dats m 0 c).arrAt_eq_of_cover 7 (regionResult m c) (fun t _ => flushed7 m c t) cover7arr

end Cert.KernelIdeal.Hand

end
-- ==== Proof.IdealResult.lean ====
/-
  The idealized kernel's result as one function of its seven argument arrays.

  The host lines before the region only add a leading unit axis to the four length-10000 vectors; the region's result
  is [128, 20, 10000] with the tap on the middle axis; the host lines after it swap the last two axes and flatten them:
  flat position q of a row of 200000 is column q / 20 and tap q % 20. So entry (b, q) of the program's result is the
  region's entry (b, q % 20, q / 20), the specification's entry of the arguments themselves.
-/
import proofs.«143995_j20495583936811_2_alg».proof.Proof.IdealFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx Cert.Decoder

variable (m : (ℓ : Loc nD τ sig) → Buf (Elt Ideal) ℓ) (ρ : Dev nD → PrngReg)

/-! ## The host lines before the region -/

/-- Row array 0 as the region finds it is argument vector `main_arg2` with a leading unit axis. -/
theorem V_row0 (c : Dev nD) (g : Fin 10000) :
    V m c main_v0 (ix2 (0 : Fin 1) g) = m ((c : Thread nD τ).loc main_arg2) (ix1 g) := by
  have e : (V m c main_v0 : S1x10000.Idx → Elt Ideal .f32)
      = shapeCast S1x10000 (m ((c : Thread nD τ).loc main_arg2)) shapeCasts_S10000_S1x10000 := by
    show StableHlo.after hostOps0 (fun b => m (c, b)) (Proc.devRef .tc main_v0) = _
    after_results
    rfl
  rw [e]
  exact shapeCast_apply _ _ _ _ (by
    show (S10000.rowMajor (ix1 g)).val = (S1x10000.rowMajor (ix2 (0 : Fin 1) g)).val
    rw [Shape.rowMajor_val_two, Shape.rowMajor_val_one]
    show g.val = 0 * 10000 + g.val
    omega)

/-- Row array 1 as the region finds it is argument vector `main_arg3` with a leading unit axis. -/
theorem V_row1 (c : Dev nD) (g : Fin 10000) :
    V m c main_v1 (ix2 (0 : Fin 1) g) = m ((c : Thread nD τ).loc main_arg3) (ix1 g) := by
  have e : (V m c main_v1 : S1x10000.Idx → Elt Ideal .f32)
      = shapeCast S1x10000 (m ((c : Thread nD τ).loc main_arg3)) shapeCasts_S10000_S1x10000 := by
    show StableHlo.after hostOps0 (fun b => m (c, b)) (Proc.devRef .tc main_v1) = _
    after_results
    rfl
  rw [e]
  exact shapeCast_apply _ _ _ _ (by
    show (S10000.rowMajor (ix1 g)).val = (S1x10000.rowMajor (ix2 (0 : Fin 1) g)).val
    rw [Shape.rowMajor_val_two, Shape.rowMajor_val_one]
    show g.val = 0 * 10000 + g.val
    omega)

/-- Row array 2 as the region finds it is argument vector `main_arg4` with a leading unit axis. -/
theorem V_row2 (c : Dev nD) (g : Fin 10000) :
    V m c main_v2 (ix2 (0 : Fin 1) g) = m ((c : Thread nD τ).loc main_arg4) (ix1 g) := by
  have e : (V m c main_v2 : S1x10000.Idx → Elt Ideal .f32)
      = shapeCast S1x10000 (m ((c : Thread nD τ).loc main_arg4)) shapeCasts_S10000_S1x10000 := by
    show StableHlo.after hostOps0 (fun b => m (c, b)) (Proc.devRef .tc main_v2) = _
    after_results
    rfl
  rw [e]
  exact shapeCast_apply _ _ _ _ (by
    show (S10000.rowMajor (ix1 g)).val = (S1x10000.rowMajor (ix2 (0 : Fin 1) g)).val
    rw [Shape.rowMajor_val_two, Shape.rowMajor_val_one]
    show g.val = 0 * 10000 + g.val
    omega)

/-- Row array 3 as the region finds it is argument vector `main_arg6` with a leading unit axis. -/
theorem V_row3 (c : Dev nD) (g : Fin 10000) :
    V m c main_v3 (ix2 (0 : Fin 1) g) = m ((c : Thread nD τ).loc main_arg6) (ix1 g) := by
  have e : (V m c main_v3 : S1x10000.Idx → Elt Ideal .f32)
      = shapeCast S1x10000 (m ((c : Thread nD τ).loc main_arg6)) shapeCasts_S10000_S1x10000 := by
    show StableHlo.after hostOps0 (fun b => m (c, b)) (Proc.devRef .tc main_v3) = _
    after_results
    rfl
  rw [e]
  exact shapeCast_apply _ _ _ _ (by
    show (S10000.rowMajor (ix1 g)).val = (S1x10000.rowMajor (ix2 (0 : Fin 1) g)).val
    rw [Shape.rowMajor_val_two, Shape.rowMajor_val_one]
    show g.val = 0 * 10000 + g.val
    omega)

/-! ## The host lines after the region -/

/-- The program's result buffer after the run: the region's result array with its last two axes swapped, flattened. -/
theorem tail_v6 (c : Dev nD) :
    Pipeline.afterTail₀ cfgs (dats m) 0 (V0 m) [hostOps1] c main_v6
      = shapeCast S128x200000 (transpose S128x10000x20 [0, 2, 1] (regionResult m c) transposes_S128x20x10000_S128x10000x20_0_2_1)
          shapeCasts_S128x10000x20_S128x200000 := by
  unfold Pipeline.afterTail₀
  show StableHlo.after hostOps1 _ (Proc.devRef .tc main_v6) = _
  after_results
  rw [show Pipeline.withArrays (cfgs 0).spec c (V0 m c) (fun w => (dats m 0 c).arrAt w (cfgs 0).N) (Proc.devRef .tc main_v4)
      = regionResult m c from (Pipeline.withArrays_arr _ launch0.win.arr_inj c _ _ 7).trans (final7 m c)]
  rfl

/-- Entry (b, q) of the program's result is the region's entry (b, q % 20, q / 20). -/
theorem tail_apply (c : Dev nD) (b : Fin 128) (q : Fin 200000) :
    Pipeline.afterTail₀ cfgs (dats m) 0 (V0 m) [hostOps1] c main_v6 (ix2 b q) = regionResult m c (ix3 b (tapOf q) (colOf q)) := by
  rw [tail_v6]
  have hq : q.val < 200000 := q.isLt
  rw [shapeCast_apply (s := S128x10000x20) (t := S128x200000) _ shapeCasts_S128x10000x20_S128x200000 (ix2 b q) (ix3 b (colOf q) (tapOf q)) (by
    rw [Shape.rowMajor_val_three, Shape.rowMajor_val_two]
    show (b.val * 10000 + q.val / 20) * 20 + q.val % 20 = b.val * 200000 + q.val
    omega)]
  exact transpose_apply (s := S128x20x10000) (t := S128x10000x20) [0, 2, 1] _ transposes_S128x20x10000_S128x10000x20_0_2_1
    (ix3 b (colOf q) (tapOf q)) (ix3 b (tapOf q) (colOf q)) (fun a => by
      match a with
      | ⟨0, _⟩ => rfl
      | ⟨1, _⟩ => rfl
      | ⟨2, _⟩ => rfl)

/-- THE PROGRAM'S RESULT: the specification's function of the seven argument arrays. -/
theorem kernel_result (c : Dev nD) :
    Pipeline.afterTail₀ cfgs (dats m) 0 (V0 m) [hostOps1] c main_v6
      = Cert.Decoder.result (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  funext i
  obtain ⟨b, q, rfl⟩ : ∃ (b : Fin 128) (q : Fin 200000), i = ix2 b q := ⟨i 0, i 1, eq_ix2 i⟩
  rw [tail_apply]
  unfold regionResult
  rw [slab_apply, V_row0, V_row1, V_row2, V_row3, V_main_arg0, V_main_arg1, V_main_arg5]
  rfl

/-- The run, read: the program's result at the specification's function of the arguments, the arguments unchanged. -/
theorem run_full : θ_run defs (onTc (τ := τ) (main (F := Ideal))) ⟨m, fun _ => 0, ρ⟩ (fun r => ∀ c : Dev nD,
      r.2.mem ((c.tc : Thread nD τ).loc main_v6)
        = Cert.Decoder.result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).2 main_v6 (Pipeline.mem_restRefs_of main_v6 (by decide) (by decide))).trans (kernel_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c)⟩)
    (run_main m ρ)

end Cert.KernelIdeal.Hand

end
-- ==== Proof.RefRead.lean ====
/-
  The reference program's result, read one entry at a time, is the decoder's specification function.

  Entry (b, q) of the [128, 200000] result is the logistic function of the rectified tap q % 20 of column q / 20:
  the reshape of [128, 10000, 20] to [128, 200000] sends flat position q of a row to column q / 20 and tap q % 20.
  A column's hidden value at batch row b is read first (pre-activation, batch mean, biased batch variance, the
  normalised, scaled, shifted and rectified value), then the tap, the second rectifier and 1 / (1 + exp (-x)).
-/
import proofs.«143995_j20495583936811_2_alg».proof.Proof.Gen.ReferenceIdeal.Read
import proofs.«143995_j20495583936811_2_alg».proof.Proof.Decoder
import Idealize.ShloMosaic.Lib.IdealHost

noncomputable section

namespace Cert.ReferenceIdeal.RefValue

open Cert.ReferenceIdeal Cert.ReferenceIdeal.Read Idealize.ShloMosaic Idealize.ShloMosaic.ValueIdx Cert.Decoder
open scoped BigOperators

/-! ## The composed index functions, by coordinates -/

theorem lidx_v0 (b : Fin 128) (g : Fin 10000) (k : Fin 2000) : lidx_main_v0 (ix2 b g) k = ix2 b k :=
  funext fun a => Fin.ext (by match a with | ⟨0, _⟩ => rfl | ⟨1, _⟩ => rfl)

theorem ridx_v0 (b : Fin 128) (g : Fin 10000) (k : Fin 2000) : ridx_main_v0 (ix2 b g) k = ix2 g k :=
  funext fun a => Fin.ext (by match a with | ⟨0, _⟩ => rfl | ⟨1, _⟩ => rfl)

theorem idx_v1_v2 (b : Fin 128) (g : Fin 10000) : idx_main_v1 (idx_main_v2 (ix2 b g)) = ix1 g :=
  funext fun a => Fin.ext (by match a with | ⟨0, _⟩ => rfl)

/-- The pre-activation of batch row b in column g. -/
theorem v3_at (x0 : (⟨S128x2000, .f32⟩ : BufTy).Contents (Elt Ideal)) (x1 : (⟨S10000x2000, .f32⟩ : BufTy).Contents (Elt Ideal))
    (x2 : (⟨S10000, .f32⟩ : BufTy).Contents (Elt Ideal)) (b : Fin 128) (g : Fin 10000) :
    val_main_v3 (F := Ideal) x0 x1 x2 (ix2 b g) = lin (rows x0) (fun l => x1 (ix2 g l)) (x2 (ix1 g)) b := by
  rw [val_main_v3_apply, val_main_v0_apply, val_main_v2_apply, val_main_v1_apply, idx_v1_v2]
  simp only [lidx_v0, ridx_v0, Ideal.addf_def]
  rfl

theorem idx_v4 (g : Fin 10000) (k : Fin 128) : idx_main_v4 (ix1 g) k = ix2 k g :=
  funext fun a => Fin.ext (by match a with | ⟨0, _⟩ => rfl | ⟨1, _⟩ => rfl)

theorem idx_v11 (g : Fin 10000) (k : Fin 128) : idx_main_v11 (ix1 g) k = ix2 k g :=
  funext fun a => Fin.ext (by match a with | ⟨0, _⟩ => rfl | ⟨1, _⟩ => rfl)

theorem idx_v7_v8 (b : Fin 128) (g : Fin 10000) : idx_main_v7 (idx_main_v8 (ix2 b g)) = ix1 g :=
  funext fun a => Fin.ext (by match a with | ⟨0, _⟩ => rfl)

theorem idx_v14_v15 (b : Fin 128) (g : Fin 10000) : idx_main_v14 (idx_main_v15 (ix2 b g)) = ix1 g :=
  funext fun a => Fin.ext (by match a with | ⟨0, _⟩ => rfl)

theorem idx_v20_v21 (b : Fin 128) (g : Fin 10000) : idx_main_v20 (idx_main_v21 (ix2 b g)) = ix1 g :=
  funext fun a => Fin.ext (by match a with | ⟨0, _⟩ => rfl)

theorem idx_v23_v24 (b : Fin 128) (g : Fin 10000) : idx_main_v23 (idx_main_v24 (ix2 b g)) = ix1 g :=
  funext fun a => Fin.ext (by match a with | ⟨0, _⟩ => rfl)

theorem idx_v26_v27 (b : Fin 128) (g : Fin 10000) : idx_main_v26 (idx_main_v27 (ix2 b g)) = ix1 g :=
  funext fun a => Fin.ext (by match a with | ⟨0, _⟩ => rfl)

/-- The batch mean of column g. -/
theorem v6_at (x0 : (⟨S128x2000, .f32⟩ : BufTy).Contents (Elt Ideal)) (x1 : (⟨S10000x2000, .f32⟩ : BufTy).Contents (Elt Ideal))
    (x2 : (⟨S10000, .f32⟩ : BufTy).Contents (Elt Ideal)) (g : Fin 10000) :
    val_main_v6 (F := Ideal) x0 x1 x2 (ix1 g) = mean (rows x0) (fun l => x1 (ix2 g l)) (x2 (ix1 g)) := by
  rw [val_main_v6_apply, val_main_v4_apply, val_main_v5_apply, val_main_cst_apply, val_main_cst_0_apply]
  simp only [idx_v4, v3_at, Ideal.hostDivf_def, Ideal.ofBits_def, Ideal.ofBits_zero_f32, zero_add]
  rfl

/-- The biased batch variance of column g. -/
theorem v13_at (x0 : (⟨S128x2000, .f32⟩ : BufTy).Contents (Elt Ideal)) (x1 : (⟨S10000x2000, .f32⟩ : BufTy).Contents (Elt Ideal))
    (x2 : (⟨S10000, .f32⟩ : BufTy).Contents (Elt Ideal)) (g : Fin 10000) :
    val_main_v13 (F := Ideal) x0 x1 x2 (ix1 g) = var (rows x0) (fun l => x1 (ix2 g l)) (x2 (ix1 g)) := by
  rw [val_main_v13_apply, val_main_v11_apply, val_main_v12_apply, val_main_cst_1_apply, val_main_cst_2_apply]
  simp only [idx_v11, val_main_v10_apply, val_main_v9_apply, val_main_v8_apply, val_main_v7_apply, idx_v7_v8, v3_at, v6_at,
    Ideal.hostDivf_def, Ideal.mulf_def, Ideal.subf_def, Ideal.ofBits_def, Ideal.ofBits_zero_f32, zero_add]
  rfl

/-- The normalised, scaled and shifted value of batch row b in column g, before the rectifier. -/
theorem v28_at (x0 : (⟨S128x2000, .f32⟩ : BufTy).Contents (Elt Ideal)) (x1 : (⟨S10000x2000, .f32⟩ : BufTy).Contents (Elt Ideal))
    (x2 x3 x4 : (⟨S10000, .f32⟩ : BufTy).Contents (Elt Ideal)) (b : Fin 128) (g : Fin 10000) :
    val_main_v28 (F := Ideal) x0 x1 x2 x3 x4 (ix2 b g) =
      (lin (rows x0) (fun l => x1 (ix2 g l)) (x2 (ix1 g)) b - mean (rows x0) (fun l => x1 (ix2 g l)) (x2 (ix1 g))) *
        Ideal.rsqrt (var (rows x0) (fun l => x1 (ix2 g l)) (x2 (ix1 g)) + Ideal.ofBits .f32 0x3727C5AC#32) * x3 (ix1 g) + x4 (ix1 g) := by
  rw [val_main_v28_apply, val_main_v25_apply, val_main_v27_apply, val_main_v26_apply, idx_v26_v27,
    val_main_v22_apply, val_main_v24_apply, val_main_v23_apply, idx_v23_v24,
    val_main_v16_apply, val_main_v15_apply, val_main_v14_apply, idx_v14_v15,
    val_main_v21_apply, val_main_v20_apply, idx_v20_v21, val_main_v19_apply, val_main_v18_apply, val_main_v17_apply,
    val_main_cst_3_apply, v3_at, v6_at, v13_at]
  simp only [Ideal.addf_def, Ideal.mulf_def, Ideal.subf_def, Ideal.hostUnary_rsqrt_def, Ideal.ofBits_def]

/-- The hidden value of batch row b in column g. -/
theorem v33_at (x0 : (⟨S128x2000, .f32⟩ : BufTy).Contents (Elt Ideal)) (x1 : (⟨S10000x2000, .f32⟩ : BufTy).Contents (Elt Ideal))
    (x2 x3 x4 : (⟨S10000, .f32⟩ : BufTy).Contents (Elt Ideal)) (b : Fin 128) (g : Fin 10000) :
    val_main_v33 (F := Ideal) x0 x1 x2 x3 x4 (ix2 b g) =
      hidden (rows x0) (fun l => x1 (ix2 g l)) (x2 (ix1 g)) (x3 (ix1 g)) (x4 (ix1 g)) b := by
  rw [val_main_v33_apply, val_main_v30_apply, val_main_v32_apply, val_main_v29_apply, val_main_v31_apply,
    val_main_cst_4_apply, val_main_cst_5_apply, v28_at]
  simp only [Ideal.cmpf_def, Ideal.mulf_def, Ideal.ofBits_def]
  rfl

/-! ## The filter taps, the reshape and the logistic function -/

/-- Flat position q of a row of 200000 entries is column q / 20, tap q % 20. -/
theorem idx_v47 (b : Fin 128) (q : Fin 200000) : idx_main_v47 (ix2 b q) = ix3 b (colOf q) (tapOf q) :=
  funext fun a => Fin.ext (by
    have hb := b.isLt
    have hq := q.isLt
    match a with
    | ⟨0, _⟩ => show (b.val * 200000 + q.val) / 200000 = b.val; omega
    | ⟨1, _⟩ => show (b.val * 200000 + q.val) / 20 % 10000 = q.val / 20; omega
    | ⟨2, _⟩ => show (b.val * 200000 + q.val) % 20 = q.val % 20; omega)

theorem idx_v34_v36 (b : Fin 128) (g : Fin 10000) (k : Fin 20) : idx_main_v34 (idx_main_v36 (ix3 b g k)) = ix2 b g :=
  funext fun a => Fin.ext (by match a with | ⟨0, _⟩ => rfl | ⟨1, _⟩ => rfl)

theorem idx_v35_v37 (b : Fin 128) (g : Fin 10000) (k : Fin 20) : idx_main_v35 (idx_main_v37 (ix3 b g k)) = ix2 g k :=
  funext fun a => Fin.ext (by match a with | ⟨0, _⟩ => rfl | ⟨1, _⟩ => rfl)

theorem idx_v39_v40 (b : Fin 128) (g : Fin 10000) (k : Fin 20) : idx_main_v39 (idx_main_v40 (ix3 b g k)) = ix1 g :=
  funext fun a => Fin.ext (by match a with | ⟨0, _⟩ => rfl)

/-- Tap k of column g at batch row b, before the second rectifier. -/
theorem v41_at (x0 : (⟨S128x2000, .f32⟩ : BufTy).Contents (Elt Ideal)) (x1 : (⟨S10000x2000, .f32⟩ : BufTy).Contents (Elt Ideal))
    (x2 x3 x4 : (⟨S10000, .f32⟩ : BufTy).Contents (Elt Ideal)) (x5 : (⟨S10000x20, .f32⟩ : BufTy).Contents (Elt Ideal))
    (x6 : (⟨S10000, .f32⟩ : BufTy).Contents (Elt Ideal)) (b : Fin 128) (g : Fin 10000) (k : Fin 20) :
    val_main_v41 (F := Ideal) x0 x1 x2 x3 x4 x5 x6 (ix3 b g k) =
      hidden (rows x0) (fun l => x1 (ix2 g l)) (x2 (ix1 g)) (x3 (ix1 g)) (x4 (ix1 g)) b * x5 (ix2 g k) + x6 (ix1 g) := by
  rw [val_main_v41_apply, val_main_v38_apply, val_main_v36_apply, val_main_v34_apply, idx_v34_v36,
    val_main_v37_apply, val_main_v35_apply, idx_v35_v37, val_main_v40_apply, val_main_v39_apply, idx_v39_v40, v33_at]
  simp only [Ideal.addf_def, Ideal.mulf_def]

/-- Tap k of column g at batch row b, rectified. -/
theorem v46_at (x0 : (⟨S128x2000, .f32⟩ : BufTy).Contents (Elt Ideal)) (x1 : (⟨S10000x2000, .f32⟩ : BufTy).Contents (Elt Ideal))
    (x2 x3 x4 : (⟨S10000, .f32⟩ : BufTy).Contents (Elt Ideal)) (x5 : (⟨S10000x20, .f32⟩ : BufTy).Contents (Elt Ideal))
    (x6 : (⟨S10000, .f32⟩ : BufTy).Contents (Elt Ideal)) (b : Fin 128) (g : Fin 10000) (k : Fin 20) :
    val_main_v46 (F := Ideal) x0 x1 x2 x3 x4 x5 x6 (ix3 b g k) =
      leaky (hidden (rows x0) (fun l => x1 (ix2 g l)) (x2 (ix1 g)) (x3 (ix1 g)) (x4 (ix1 g)) b * x5 (ix2 g k) + x6 (ix1 g)) := by
  rw [val_main_v46_apply, val_main_v43_apply, val_main_v45_apply, val_main_v42_apply, val_main_v44_apply,
    val_main_cst_6_apply, val_main_cst_7_apply, v41_at]
  simp only [Ideal.cmpf_def, Ideal.mulf_def, Ideal.ofBits_def]
  rfl

/-- The reference program's result is the specification function. -/
theorem ref_is_result (x0 : (⟨S128x2000, .f32⟩ : BufTy).Contents (Elt Ideal)) (x1 : (⟨S10000x2000, .f32⟩ : BufTy).Contents (Elt Ideal))
    (x2 x3 x4 : (⟨S10000, .f32⟩ : BufTy).Contents (Elt Ideal)) (x5 : (⟨S10000x20, .f32⟩ : BufTy).Contents (Elt Ideal))
    (x6 : (⟨S10000, .f32⟩ : BufTy).Contents (Elt Ideal)) :
    val_main_v53 (F := Ideal) x0 x1 x2 x3 x4 x5 x6 = Cert.Decoder.result x0 x1 x2 x3 x4 x5 x6 := by
  funext i
  obtain ⟨b, q, rfl⟩ : ∃ (b : Fin 128) (q : Fin 200000), i = ix2 b q := ⟨i 0, i 1, eq_ix2 i⟩
  rw [val_main_v53_apply, val_main_v52_apply, val_main_v51_apply, val_main_v50_apply, val_main_v49_apply,
    val_main_v48_apply, val_main_v47_apply, idx_v47, val_main_cst_9_apply, val_main_cst_8_apply, v46_at]
  simp only [Ideal.hostDivf_def, Ideal.addf_def, Ideal.hostUnary_exp_def, Ideal.hostNegf_def, Ideal.negf_def,
    Ideal.ofBits_def, Ideal.ofBits_one_f32]
  rfl

end Cert.ReferenceIdeal.RefValue

end
-- ==== Proof.lean ====
/-
  The certificate of the fused decoder kernel against its plain reference.

  Both programs compute, for batch row b, column g and tap k, the logistic function of the leaky rectifier of
  hidden(b, g) · cw(g, k) + cb(g), where hidden is the leaky rectifier of the batch-normalised pre-activation
  Σ_l z(b, l) · W(g, l) + bias(g), scaled and shifted per column; the result is laid out as [128, 200000] with
  position 20 · g + k in a row. The kernel tiles the 10000 columns in sixteen blocks of 640, the last one reaching
  past the arrays' end: what it computes from the unnamed words there never reaches the result array, because a
  column's entries depend on that column's data only and the cut write-back drops the columns past the end. At the
  exact values the two programs are the same function of the seven argument arrays, operation by operation (a
  product into a zero accumulator and the host's product, a column sum and the host's sum, the logistic function and
  1 / (1 + exp (-x))), so no finiteness of the inputs is used.

  Proof/Decoder.lean states that function; Proof/KernelBody.lean and Proof/KernelFrame.lean prove the word-level
  kernel's frame (the result buffer's contents left unnamed); Proof/IdealBody.lean, IdealSlab.lean, IdealBlocks.lean,
  IdealFrame.lean and IdealResult.lean run the idealized kernel and read its result as that function;
  Proof/RefRead.lean reads the reference's result as that function.
-/
import proofs.«143995_j20495583936811_2_alg».proof.Defs
import proofs.«143995_j20495583936811_2_alg».proof.Proof.Gen.Kernel
import proofs.«143995_j20495583936811_2_alg».proof.Proof.Gen.KernelIdeal
import proofs.«143995_j20495583936811_2_alg».proof.Proof.Gen.ReferenceIdeal
import proofs.«143995_j20495583936811_2_alg».proof.Proof.Gen.Pre_finite_inputs
import proofs.«143995_j20495583936811_2_alg».proof.Proof.Gen.ReferenceIdeal.Read
import proofs.«143995_j20495583936811_2_alg».proof.Proof.KernelFrame
import proofs.«143995_j20495583936811_2_alg».proof.Proof.IdealResult
import proofs.«143995_j20495583936811_2_alg».proof.Proof.RefRead
import Idealize.ShloMosaic.Adequacy
import Idealize.ShloMosaic.Init

noncomputable section

namespace Cert.Proof

open Idealize.ShloMosaic Idealize.SL.Sem

/-- The word-level kernel runs to the end and leaves its arguments unchanged. -/
theorem frame_k : Cert.frame_Kernel := fun m ρ _ => Cert.Kernel.Hand.frame (F := Bits) m ρ

/-- So does the idealized kernel: its run, read at the argument arrays. -/
theorem frame_ki : Cert.frame_KernelIdeal := fun m ρ _ =>
  Cert.KernelIdeal.Gen.frame_of m ρ (Cert.KernelIdeal.Hand.dats m) (Cert.KernelIdeal.Hand.A_eq m) (Cert.KernelIdeal.Hand.run_main m ρ)

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel and its idealization are one text read at two instances: there is nothing to preserve. -/
theorem preserves : Cert.preserves_Kernel_KernelIdeal := trivial

/-- From memories that agree on the arguments both idealized programs end with the specification's function of
    those arguments as their result. -/
theorem algebraic : Cert.algebraic_KernelIdeal_ReferenceIdeal := by
  intro m ρ m' ρ' _ hagree
  refine ⟨fun c => Cert.Decoder.result (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), Cert.KernelIdeal.Hand.run_full m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v53_eq, Cert.ReferenceIdeal.RefValue.ref_is_result,
    (hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
